-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S1x800000 : Shape := ⟨2, ![1, 800000]⟩
abbrev S800000 : Shape := ⟨1, ![800000]⟩

class Facts : Prop where
  bcast_S_S50000x768 : S_.BroadcastsInDim S50000x768 (![] : Fin 0 → Fin S50000x768.rank)
  reducesTo_S50000x768_S_d0_1 : S50000x768.ReducesTo [0, 1] S_
  h_S_ : 0 < S_.numel
  bcast_S_S768x128 : S_.BroadcastsInDim S768x128 (![] : Fin 0 → Fin S768x128.rank)
  reducesTo_S768x128_S_d0_1 : S768x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_v33 : IVec S_ 1) : IVec S_ 1 :=
  let main_v34 : IVec S1x800000 32 := (extractStridedSlice S1x800000 ![1, 0] · slices_S2x800000_S1x800000_1_0) main_arg1
  let main_v35 : IVec S800000 32 := shapeCast S800000 main_v34 shapeCasts_S1x800000_S800000
  let main_c_12 : IVec S_ 32 := constantI S_ 32 0#32
  let main_v36 : IVec S800000 32 := broadcastInDim S800000 ![] bcast_S_S800000 main_c_12
  let main_v37 : IVec S800000 1 := cmpi .sge main_v35 main_v36
  let main_c_13 : IVec S_ 1 := constantI S_ 1 1#1
  let main_v38 : IVec S_ 1 := (fun x v => Host.reduce IntOp.andi x v reducesTo_S800000_S_d0 h_S_) main_v37 main_c_13
  let main_v39 : IVec S_ 1 := andi main_v33 main_v38
  main_v39

def fn_part1 {F : FTy → Type} [FloatOps F] (main_arg1 : IVec S2x800000 32) (main_arg5 : FVec F S64 .f32) (main_arg6 : FVec F S64x2 .f32) (main_arg7 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_v33

def fn {F : FTy → Type} [FloatOps F] (main_arg0 : FVec F S50000x768 .f32) (main_arg1 : IVec S2x800000 32) (main_arg2 : FVec F S768x128 .f32) (main_arg3 : FVec F S128 .f32) (main_arg4 : FVec F S128x64 .f32) (main_arg5 : FVec F S64 .f32) (main_arg6 : FVec F S64x2 .f32) (main_arg7 : FVec F S2 .f32) : IVec S_ 1 :=
  let main_v0 : FVec F S50000x768 .f32 := Host.absf main_arg0
  let main_cst : FVec F S_ .f32 := constant S_ .f32 0x7F800000#32
  let main_v1 : FVec F S50000x768 .f32 := broadcastInDim S50000x768 ![] bcast_S_S50000x768 main_cst
  let main_v2 : IVec S50000x768 1 := cmpf .olt main_v0 main_v1
  let main_c : IVec S_ 1 := constantI S_ 1 1#1
  let main_v3 : IVec S_ 1 := (fun x v => Host.reduce IntOp.andi x v reducesTo_S50000x768_S_d0_1 h_S_) main_v2 main_c
  let main_v4 : FVec F S768x128 .f32 := Host.absf main_arg2
  let main_cst_0 : FVec F S_ .f32 := constant S_ .f32 0x7F800000#32
  let main_v5 : FVec F S768x128 .f32 := broadcastInDim S768x128 ![] bcast_S_S768x128 main_cst_0
  let main_v6 : IVec S768x128 1 := cmpf .olt main_v4 main_v5
  let main_c_1 : IVec S_ 1 := constantI S_ 1 1#1
  let main_v7 : IVec S_ 1 := (fun x v => Host.reduce IntOp.andi x v reducesTo_S768x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_v13 main_v16
-- ==== Kernel.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x128 : Shape := ⟨2, ![50000, 128]⟩
abbrev S2000x768 : Shape := ⟨2, ![2000, 768]⟩
abbrev S2000x1 : Shape := ⟨2, ![2000, 1]⟩
abbrev S2000x128 : Shape := ⟨2, ![2000, 128]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S1x2 : Shape := ⟨2, ![1, 2]⟩
abbrev S50000x2 : Shape := ⟨2, ![50000, 2]⟩
abbrev S2000x2 : Shape := ⟨2, ![2000, 2]⟩

abbrev nBuf : Space → Nat
  | .hbm => 55
  | .vmem => 28
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S50000x1, .f32⟩
  | .hbm, ⟨23, _⟩ => ⟨S50000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S_, .f32⟩
  | .hbm, ⟨34, _⟩ => ⟨S50000x128, .f32⟩
  | .hbm, ⟨35, _⟩ => ⟨S800000x1, .i32⟩
  | .hbm, ⟨36, _⟩ => ⟨S50000x128, .f32⟩
  | .hbm, ⟨37, _⟩ => ⟨S1x128, .f32⟩
  | .hbm, ⟨38, _⟩ => ⟨S50000x64, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x64, .f32⟩
  | .hbm, ⟨48, _⟩ => ⟨S_, .f32⟩
  | .hbm, ⟨49, _⟩ => ⟨S50000x64, .f32⟩
  | .hbm, ⟨50, _⟩ => ⟨S800000x1, .i32⟩
  | .hbm, ⟨51, _⟩ => ⟨S50000x64, .f32⟩
  | .hbm, ⟨52, _⟩ => ⟨S1x64, .f32⟩
  | .hbm, ⟨53, _⟩ => ⟨S1x2, .f32⟩
  | .hbm, ⟨54, _⟩ => ⟨S50000x2, .f32⟩
  | .local _ .vmem, ⟨0, _⟩ => ⟨S2000x768, .f32⟩
  | .local _ .vmem, ⟨1, _⟩ => ⟨S2000x768, .f32⟩
  | .local _ .vmem, ⟨2, _⟩ => ⟨S768x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x1, .f32⟩
  | .local _ .vmem, ⟨22, _⟩ => ⟨S2000x1, .f32⟩
  | .local _ .vmem, ⟨23, _⟩ => ⟨S1x64, .f32⟩
  | .local _ .vmem, ⟨24, _⟩ => ⟨S64x2, .f32⟩
  | .local _ .vmem, ⟨25, _⟩ => ⟨S1x2, .f32⟩
  | .local _ .vmem, ⟨26, _⟩ => ⟨S2000x2, .f32⟩
  | .local _ .vmem, ⟨27, _⟩ => ⟨S2000x2, .f32⟩
  | _, _ => ⟨S50000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x2 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x768_S2000x768_0_0 : ∀ a, (![0, 0] : Fin 2 → Nat) a + S2000x768.size a ≤ S2000x768.size a
  h_S2000x768 : 0 < S2000x768.numel
  bitsLt_bf16_f32 : FTy.bits .bf16 < FTy.bits .f32
  inb_S768x128_S768x128_0_0 : ∀ a, (![0, 0] : Fin 2 → Nat) a + S768x128.size a ≤ S768x128.size a
  h_S768x128 : 0 < S768x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2_S1x2 : S2.ShapeCasts S1x2
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  dot_S2000x768_S768x128_S2000x128_1_0_0_1_n_n_wf : DotDims.WF S2000x768 S768x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x2_S2000x2_1_0_0_1_n_n_wf : DotDims.WF S2000x64 S64x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S50000x768.size a
  hwx0_0 : ∀ i : grid0.Coords, EltTy.bits .f32 = 32 ∨ (Rect.block (s := S50000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x128.size a ≤ S768x128.size a
  hwx0_1 : ∀ i : grid0.Coords, EltTy.bits .f32 = 32 ∨ (Rect.block (s := S768x128) S768x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .f32 = 32 ∨ (Rect.block (s := S50000x64) S2000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x2.size a ≤ S64x2.size a
  hwx2_4 : ∀ i : grid2.Coords, EltTy.bits .f32 = 32 ∨ (Rect.block (s := S64x2) S64x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2.size a ≤ S1x2.size a
  hwx2_5 : ∀ i : grid2.Coords, EltTy.bits .f32 = 32 ∨ (Rect.block (s := S1x2) S1x2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x2.size a ≤ S50000x2.size a
  hwx2_6 : ∀ i : grid2.Coords, EltTy.bits .f32 = 32 ∨ (Rect.block (s := S50000x2) S2000x2.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x2_S2000x2_1_0_0_1_n_n : DotDims S2000x64 S64x2 S2000x2 where
  lhsContracting := [1]
  rhsContracting := [0]
  lhsNonContracting := [0]
  rhsNonContracting := [1]
  lhsBatch := []
  rhsBatch := []
  wf := dot_S2000x64_S64x2_S2000x2_1_0_0_1_n_n_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S768x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v34) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S2000x2.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x768 : Shape := ⟨2, ![50000, 768]⟩
abbrev S2x800000 : Shape := ⟨2, ![2, 800000]⟩
abbrev S768x128 : Shape := ⟨2, ![768, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x128 : Shape := ⟨2, ![50000, 128]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S50000x2 : Shape := ⟨2, ![50000, 2]⟩
abbrev S1x2 : Shape := ⟨2, ![1, 2]⟩

abbrev nBuf : Space → Nat
  | .hbm => 124
  | .vmem => 0
  | .smem => 0
  | _ => 0

abbrev bufTy : (tb : Table) → Fin (tcTables nBuf tb) → BufTy
  | .hbm, ⟨0, _⟩ => ⟨S50000x768, .f32⟩
  | .hbm, ⟨1, _⟩ => ⟨S2x800000, .i32⟩
  | .hbm, ⟨2, _⟩ => ⟨S768x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S50000, .f32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S_, .f32⟩
  | .hbm, ⟨23, _⟩ => ⟨S800000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000, .f32⟩
  | .hbm, ⟨29, _⟩ => ⟨S50000x128, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S800000x128, .f32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000, .f32⟩
  | .hbm, ⟨66, _⟩ => ⟨S50000x1, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S1x128, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x64, .f32⟩
  | .hbm, ⟨77, _⟩ => ⟨S_, .i32⟩
  | .hbm, ⟨78, _⟩ => ⟨S800000, .i32⟩
  | .hbm, ⟨79, _⟩ => ⟨S800000, .i1⟩
  | .hbm, ⟨80, _⟩ => ⟨S_, .i32⟩
  | .hbm, ⟨81, _⟩ => ⟨S800000, .i32⟩
  | .hbm, ⟨82, _⟩ => ⟨S800000, .i32⟩
  | .hbm, ⟨83, _⟩ => ⟨S800000, .i32⟩
  | .hbm, ⟨84, _⟩ => ⟨S800000x1, .i32⟩
  | .hbm, ⟨85, _⟩ => ⟨S800000, .f32⟩
  | .hbm, ⟨86, _⟩ => ⟨S_, .i32⟩
  | .hbm, ⟨87, _⟩ => ⟨S800000, .i32⟩
  | .hbm, ⟨88, _⟩ => ⟨S800000, .i1⟩
  | .hbm, ⟨89, _⟩ => ⟨S_, .i32⟩
  | .hbm, ⟨90, _⟩ => ⟨S800000, .i32⟩
  | .hbm, ⟨91, _⟩ => ⟨S800000, .i32⟩
  | .hbm, ⟨92, _⟩ => ⟨S800000, .i32⟩
  | .hbm, ⟨93, _⟩ => ⟨S800000x1, .i32⟩
  | .hbm, ⟨94, _⟩ => ⟨S800000, .f32⟩
  | .hbm, ⟨95, _⟩ => ⟨S800000, .f32⟩
  | .hbm, ⟨96, _⟩ => ⟨S800000x1, .f32⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x64, .f32⟩
  | .hbm, ⟨106, _⟩ => ⟨S800000x64, .f32⟩
  | .hbm, ⟨107, _⟩ => ⟨S800000x64, .f32⟩
  | .hbm, ⟨108, _⟩ => ⟨S_, .f32⟩
  | .hbm, ⟨109, _⟩ => ⟨S50000x64, .f32⟩
  | .hbm, ⟨110, _⟩ => ⟨S800000x1, .i32⟩
  | .hbm, ⟨111, _⟩ => ⟨S50000x64, .f32⟩
  | .hbm, ⟨112, _⟩ => ⟨S50000, .f32⟩
  | .hbm, ⟨113, _⟩ => ⟨S50000x1, .f32⟩
  | .hbm, ⟨114, _⟩ => ⟨S50000x64, .f32⟩
  | .hbm, ⟨115, _⟩ => ⟨S50000x64, .f32⟩
  | .hbm, ⟨116, _⟩ => ⟨S50000x64, .f32⟩
  | .hbm, ⟨117, _⟩ => ⟨S1x64, .f32⟩
  | .hbm, ⟨118, _⟩ => ⟨S50000x64, .f32⟩
  | .hbm, ⟨119, _⟩ => ⟨S50000x64, .f32⟩
  | .hbm, ⟨120, _⟩ => ⟨S50000x2, .f32⟩
  | .hbm, ⟨121, _⟩ => ⟨S1x2, .f32⟩
  | .hbm, ⟨122, _⟩ => ⟨S50000x2, .f32⟩
  | .hbm, ⟨123, _⟩ => ⟨S50000x2, .f32⟩
  | _, _ => ⟨S50000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_call0_cst : Ref sig .tc := ⟨.hbm, 73, rfl⟩
abbrev main_call0_v0 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c_14 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_16 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  dot_S50000x768_S768x128_S50000x128_1_0_0_1_n_n_wf : DotDims.WF S50000x768 S768x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x2_S50000x2_1_0_0_1_n_n_wf : DotDims.WF S50000x64 S64x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x768_S768x128_S50000x128_1_0_0_1_n_n : DotDims S50000x768 S768x128 S50000x128 where
  lhsContracting := [1]
  rhsContracting := [0]
  lhsNonContracting := [0]
  rhsNonContracting := [1]
  lhsBatch := []
  rhsBatch := []
  wf := dot_S50000x768_S768x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel's run with its result named.

  The generated frame certificate walks @main as six segments — three stretches of host operations and three
  pipelined regions — and records the buffer contents at every boundary: `W6 m ρ c` is what core `c`'s unscoped
  buffers hold when the last region has written back. Its last step reads only the argument arrays off that final
  valuation. Here the same launch is stated once more with the result buffer read off it as well, so that the value
  of the run is available: the result ends at `W6 m ρ c` of its reference, the arguments as launched.
-/
import proofs.«154383_j78194174591377_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution of @main terminates without a fault; the result buffer ends at the final valuation's
    contents of its reference, and every argument array as launched. -/
theorem run_named : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.Named

end
-- ==== Proof.Layers.lean ====
/-
  The graph network's value as functions of whole arrays, over the extended reals.

  A node's feature row is projected by a weight matrix and scaled by the node's inverse square-root degree
  (`projScaled`). The neighbour sum of a node is the sum, over the edges that end at it, of the scaled rows of
  their source nodes (`neighbourSum`: a row gather by the source column followed by an accumulating row scatter into
  zeros by the target column). A layer then adds the node's own scaled row to its neighbour sum, scales the total by the
  same degree factor and adds the bias; the first layer clips at zero and feeds the second projection (`hiddenScaled`),
  the second feeds the classifier (`classify`). `network` composes them from the argument arrays.
-/
import proofs.«154383_j78194174591377_2_alg».proof.KernelIdeal
import Idealize.ShloMosaic.Lib.ValueIdx
import Idealize.ShloMosaic.PureOps.Ideal

noncomputable section

open scoped BigOperators

namespace Cert.Gcn

open Idealize.ShloMosaic Idealize.ShloMosaic.ValueIdx Cert.KernelIdeal

variable [Facts₀]
open Facts₀

/-- The word of the float zero, read at the ideal instance. -/
abbrev zeroWord : EReal := Ideal.ofBits .f32 0x00000000#32

/-! ## The index columns and the degree factor, from the edge array -/

/-- Row `r` of the edge array as a flat vector of words. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- The source column: each source word, moved up by the node count when negative, as an `[E, 1]` column. -/
def srcCol (ei : IVec S2x800000 32) : IVec S800000x1 32 :=
  broadcastInDim S800000x1 ![0] bcast_S800000_S800000x1_0
    (select (cmpi .slt (edgeRow0 ei) (broadcastInDim S800000 ![] bcast_S_S800000 (constantI S_ 32 0#32)))
      (addi (edgeRow0 ei) (broadcastInDim S800000 ![] bcast_S_S800000 (constantI S_ 32 50000#32))) (edgeRow0 ei))

/-- The target column: the target words as they are, as an `[E, 1]` column. -/
def dstCol (ei : IVec S2x800000 32) : IVec S800000x1 32 :=
  broadcastInDim S800000x1 ![0] bcast_S800000_S800000x1_0 (edgeRow1 ei)

/-- The inverse square root of each node's degree (the edges ending at it, plus one for its own loop). -/
def degFactor (ei : IVec S2x800000 32) : FVec Ideal S50000 .f32 :=
  Host.rsqrt (addf
    (Host.scatterAdd scatter_S50000_S800000x1_S800000_n_0_0_1
      (broadcastInDim S50000 ![] bcast_S_S50000 (constant S_ .f32 0x00000000#32)) (dstCol ei)
      (broadcastInDim S800000 ![] bcast_S_S800000 (constant S_ .f32 0x3F800000#32)))
    (broadcastInDim S50000 ![] bcast_S_S50000 (constant S_ .f32 0x3F800000#32)))

/-- The degree factor as an `[N, 1]` column. -/
def degCol (ei : IVec S2x800000 32) : FVec Ideal S50000x1 .f32 :=
  shapeCast S50000x1 (degFactor ei) shapeCasts_S50000_S50000x1

/-! ## The neighbour sums -/

/-- Neighbour sums of `[N, 128]` rows: gather the source rows, scatter-add them into zeros at the target rows. -/
def neighbourSum128 (ei : IVec S2x800000 32) (y : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32)) (dstCol ei)
    (Host.gather gather_S50000x128_S800000x1_S800000x128_1_0_n_n_0_1_1128 y (srcCol ei))

/-- Neighbour sums of `[N, 64]` rows. -/
def neighbourSum64 (ei : IVec S2x800000 32) (y : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32)) (dstCol ei)
    (Host.gather gather_S50000x64_S800000x1_S800000x64_1_0_n_n_0_1_164 y (srcCol ei))

/-! ## The three dense stages, entry by entry -/

/-- `(x · w)` scaled row by row by the column `d`. -/
def projScaled (x : S50000x768.Idx → EReal) (w : S768x128.Idx → EReal) (d : S50000x1.Idx → EReal) : S50000x128.Idx → EReal :=
  fun i => (∑ k : Fin 768, x (ix2 (i 0) k) * w (ix2 k (i 1))) * d (ix2 (i 0) (0 : Fin 1))

/-- The first layer's activation at `(n, f)`: `max (d n · (a (n, f) + y (n, f)) + b f) 0`. -/
def hidden (a y : S50000x128.Idx → EReal) (d : S50000x1.Idx → EReal) (b : S1x128.Idx → EReal) (n : Fin 50000) (f : Fin 128) : EReal :=
  max (d (ix2 n (0 : Fin 1)) * (a (ix2 n f) + y (ix2 n f)) + b (ix2 (0 : Fin 1) f)) zeroWord

/-- The first layer's activation projected by `w` and scaled row by row by `d`. -/
def hiddenScaled (a y : S50000x128.Idx → EReal) (d : S50000x1.Idx → EReal) (b : S1x128.Idx → EReal) (w : S128x64.Idx → EReal) :
    S50000x64.Idx → EReal :=
  fun i => (∑ f : Fin 128, hidden a y d b (i 0) f * w (ix2 f (i 1))) * d (ix2 (i 0) (0 : Fin 1))

/-- The second layer's output at `(n, g)`: `d n · (a (n, g) + y (n, g)) + b g`. -/
def embed (a y : S50000x64.Idx → EReal) (d : S50000x1.Idx → EReal) (b : S1x64.Idx → EReal) (n : Fin 50000) (g : Fin 64) : EReal :=
  d (ix2 n (0 : Fin 1)) * (a (ix2 n g) + y (ix2 n g)) + b (ix2 (0 : Fin 1) g)

/-- The classifier on the second layer's output. -/
def classify (a y : S50000x64.Idx → EReal) (d : S50000x1.Idx → EReal) (b : S1x64.Idx → EReal) (w : S64x2.Idx → EReal)
    (bc : S1x2.Idx → EReal) : S50000x2.Idx → EReal :=
  fun i => (∑ g : Fin 64, embed a y d b (i 0) g * w (ix2 g (i 1))) + bc (ix2 (0 : Fin 1) (i 1))

/-! ## The network -/

/-- The first projection, scaled. -/
def stage1 (x : FVec Ideal S50000x768 .f32) (ei : IVec S2x800000 32) (w1 : FVec Ideal S768x128 .f32) : FVec Ideal S50000x128 .f32 :=
  projScaled x w1 (degCol ei)

/-- The second projection, scaled. -/
def stage2 (x : FVec Ideal S50000x768 .f32) (ei : IVec S2x800000 32) (w1 : FVec Ideal S768x128 .f32) (b1 : FVec Ideal S128 .f32)
    (w2 : FVec Ideal S128x64 .f32) : FVec Ideal S50000x64 .f32 :=
  hiddenScaled (neighbourSum128 ei (stage1 x ei w1)) (stage1 x ei w1) (degCol ei) (shapeCast S1x128 b1 shapeCasts_S128_S1x128) w2

/-- The whole network's result. -/
def network (x : FVec Ideal S50000x768 .f32) (ei : IVec S2x800000 32) (w1 : FVec Ideal S768x128 .f32) (b1 : FVec Ideal S128 .f32)
    (w2 : FVec Ideal S128x64 .f32) (b2 : FVec Ideal S64 .f32) (wc : FVec Ideal S64x2 .f32) (bc : FVec Ideal S2 .f32) :
    FVec Ideal S50000x2 .f32 :=
  classify (neighbourSum64 ei (stage2 x ei w1 b1 w2)) (stage2 x ei w1 b1 w2) (degCol ei) (shapeCast S1x64 b2 shapeCasts_S64_S1x64) wc
    (shapeCast S1x2 bc shapeCasts_S2_S1x2)

end Cert.Gcn

end
-- ==== Proof.LibPlainDot.lean ====
/-
  A plain matrix product read at an index, over the extended reals.

  For the dimension numbers of an `M×K` by `K×N` product (contract the left operand's axis 1 with the right operand's
  axis 0, no batch axis) the contraction index is one coordinate `k < K`, the left operand is read at `(p, k)` and the
  right one at `(k, q)`. So both a kernel's matmul into a zero accumulator and a host `dot_general` are, at `(p, q)`,
  the sum over `k : Fin K` of `lhs (p, k) * rhs (k, q)` — one and the same extended real, whatever the blocking.
-/
import Idealize.ShloMosaic.PureOps.Ideal
import Idealize.ShloMosaic.PureOps.Ideal.Laws
import Idealize.ShloMosaic.Lib.ValueIdx

noncomputable section

namespace Idealize.ShloMosaic.PlainDot

open Idealize.ShloMosaic Idealize.ShloMosaic.ValueIdx

/-- The left operand's index of a plain product at output `(p, q)` and contraction position `k` is `(p, k)`. -/
theorem lhsIdx_plain (M K N : ℕ) (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ => rfl

/-- The right operand's index of a plain product at output `(p, q)` and contraction position `k` is `(k, q)`. -/
theorem rhsIdx_plain (M K N : ℕ) (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ => rfl
  | ⟨1, _⟩ => rfl

/-- The contraction sum of a plain product, re-indexed by the one contracted coordinate. -/
theorem sum_plain (M K N : ℕ) (a : (⟨2, ![M, K]⟩ : Shape).Idx → EReal) (w : (⟨2, ![K, N]⟩ : Shape).Idx → EReal)
    (p : Fin M) (q : Fin N) :
    ∑ k : (DotDims.plain M K N).contr.Idx,
        a ((DotDims.plain M K N).lhsIdx (ix2 p q) k) * w ((DotDims.plain M K N).rhsIdx (ix2 p q) k)
      = ∑ k : Fin K, a (ix2 p k) * w (ix2 k q) := by
  rw [← Equiv.sum_comp (contrEquiv1 (DotDims.plain M K N) K rfl rfl).symm]
  exact Finset.sum_congr rfl fun k _ => by rw [lhsIdx_plain, rhsIdx_plain]

/-- A kernel's matmul into the zero accumulator, with plain dimension numbers, read at `(p, q)`. -/
theorem matmul_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (p : Fin M) (q : Fin N) :
    FloatOps.matmul d prec lhs rhs (constant ⟨2, ![M, N]⟩ .f32 0x00000000#32) (ix2 p q)
      = ∑ k : Fin K, lhs (ix2 p k) * rhs (ix2 k q) := by
  subst hd
  rw [Ideal.matmul_constant_zero_apply]
  exact sum_plain M K N lhs rhs p q

/-- A host `dot_general` with plain dimension numbers read at `(p, q)`. -/
theorem dotGeneral_apply {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (lhs : FVec Ideal ⟨2, ![M, K]⟩ φ₁) (rhs : FVec Ideal ⟨2, ![K, N]⟩ φ₂) (p : Fin M) (q : Fin N) :
    FloatOps.dotGeneral d prec sched lhs rhs (ix2 p q) = ∑ k : Fin K, lhs (ix2 p k) * rhs (ix2 k q) := by
  subst hd
  rw [Ideal.dotGeneral_apply]
  exact sum_plain M K N lhs rhs p q

end Idealize.ShloMosaic.PlainDot

end
-- ==== Proof.LibColumns.lean ====
/-
  Two layout operations on a matrix with a short second axis, read at an index.

  A kernel that needs one column of a packed `[a, n]` array slices it out as an `[a, 1]` column and broadcasts that
  column along the rows of an `[a, b]` block. Read at row `p` and column `c`, the result is the packed array at
  `(p, col)`, whatever `c` is.
-/
import Idealize.ShloMosaic.Lib.ValueIdx
import Idealize.ShloMosaic.Lib.Pipeline.Value

noncomputable section

namespace Idealize.ShloMosaic.ValueIdx

open Idealize.ShloMosaic

variable {α : Type}

/-- A unit-stride slice taking column `col` of an `[a, n]` array as an `[a, 1]` column: at row `p` it reads `(p, col)`. -/
theorem extractStridedSlice_column_apply {a n : ℕ} (off : Fin 2 → ℕ) (col : Fin n) (h0 : off 0 = 0) (h1 : off 1 = col.val)
    (v : (⟨2, ![a, n]⟩ : Shape).Idx → α) (h : (⟨2, ![a, n]⟩ : Shape).Slices off ⟨2, ![a, 1]⟩) (p : Fin a) (z : Fin 1) :
    extractStridedSlice ⟨2, ![a, 1]⟩ off v h (ix2 p z) = v (ix2 p col) := by
  refine extractStridedSlice_apply off v h (ix2 p z) (ix2 p col) fun ax => ?_
  match ax with
  | ⟨0, _⟩ => show p.val = off 0 + p.val; omega
  | ⟨1, _⟩ => show col.val = off 1 + z.val; have := z.isLt; omega

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx

end
-- ==== Proof.Region0.lean ====
/-
  The first pipelined region's result as one whole array.

  The region walks the 50000 node rows in 25 tiles of 2000. At a tile it holds the tile's rows of `x`, all of the first
  weight matrix and the tile's rows of the degree column, and stores `(x_tile · w) * d_tile`. Entry `(p, q)` of that
  tile is entry `(2000·t + p, q)` of `projScaled x w d`; the 25 tiles cover every row, so after the last write-back the
  result array is `projScaled` of the three arrays as the region found them.
-/
import proofs.«154383_j78194174591377_2_alg».proof.Proof.Gen.KernelIdeal.Frame
import proofs.«154383_j78194174591377_2_alg».proof.Proof.Layers
import proofs.«154383_j78194174591377_2_alg».proof.Proof.LibPlainDot
import proofs.«154383_j78194174591377_2_alg».proof.Proof.LibColumns
import Idealize.ShloMosaic.Lib.Pipeline.Value
import Idealize.ShloMosaic.Lib.ValueLayout

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at `(p, q)`: row `p` of the tile times column `q` of the weights, times the row's factor. -/
theorem payload_apply (x0 : Vec Ideal S2000x768 .f32) (x1 : Vec Ideal S768x128 .f32) (x2 : Vec Ideal S2000x1 .f32)
    (p : Fin 2000) (q : Fin 128) :
    k0_pay1 (F := Ideal) x0 x1 x2 (ix2 p q) = (∑ k : Fin 768, x0 (ix2 p k) * x1 (ix2 k q)) * x2 (ix2 p (0 : Fin 1)) := by
  unfold k0_pay1
  refine congrArg₂ (· * ·) ?_ ?_
  · exact PlainDot.matmul_zero_apply dot_S2000x768_S768x128_S2000x128_1_0_0_1_n_n rfl none _ _ p q
  · refine (broadcastTo_a1_ab_apply _ _ p q).trans ?_
    rw [shapeCast_self]

theorem hz : (![0, 0] : Fin 2 → Nat) = fun _ => 0 := funext fun a => by fin_cases a <;> rfl

/-- The printed index maps over the grid: the row tiles of `x`, of the degree column and of the result move together,
    the weights stay, and there are 25 row tiles. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = win0_3.index t (0 : Fin 2) ∧ win0_2.index t (1 : Fin 2) = 0
    ∧ win0_3.index t (1 : Fin 2) = 0 ∧ win0_3.index t (0 : Fin 2) ≤ 24 :=
  (by decide +kernel : ∀ t : Fin grid0.N, _)

/-- Every row tile is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- ONE ENTRY of a tile: if the tile's blocks are the arrays' rows and columns that entry `i` of the whole array reads,
    the stored value at `y` is `projScaled` at `i`. -/
theorem point (X : S50000x768.Idx → EReal) (W : S768x128.Idx → EReal) (D : S50000x1.Idx → EReal)
    (x0 : Vec Ideal S2000x768 .f32) (x1 : Vec Ideal S768x128 .f32) (x2 : Vec Ideal S2000x1 .f32)
    (y : S2000x128.Idx) (i : S50000x128.Idx)
    (h0 : ∀ k : Fin 768, x0 (ix2 (y 0) k) = X (ix2 (i 0) k))
    (h1 : ∀ k : Fin 768, x1 (ix2 k (y 1)) = W (ix2 k (i 1)))
    (h2 : x2 (ix2 (y 0) (0 : Fin 1)) = D (ix2 (i 0) (0 : Fin 1))) :
    k0_pay1 (F := Ideal) x0 x1 x2 y = Cert.Gcn.projScaled X W D i := by
  obtain ⟨p, q, rfl⟩ : ∃ (p : Fin 2000) (q : Fin 128), y = ix2 p q := ⟨y 0, y 1, eq_ix2 y⟩
  have h0' : ∀ k : Fin 768, x0 (ix2 p k) = X (ix2 (i 0) k) := h0
  have h1' : ∀ k : Fin 768, x1 (ix2 k q) = W (ix2 k (i 1)) := h1
  have h2' : x2 (ix2 p (0 : Fin 1)) = D (ix2 (i 0) (0 : Fin 1)) := h2
  rw [payload_apply, h2']
  unfold Cert.Gcn.projScaled
  refine congrArg (· * D (ix2 (i 0) (0 : Fin 1))) ?_
  exact Finset.sum_congr rfl fun k _ => by rw [h0' k, h1' k]

variable (V : (c : Dev nD) → (b : Ref sig .tc) → Buf (Elt Ideal) ((c : Thread nD τ).loc b))

/-- WHAT POINT `t` WRITES BACK is tile `t` of `projScaled` of the arrays as the region finds them. -/
theorem flushed_eq (c : Dev nD) (t : Fin cfg0.N) :
    (dat0 V c).flushed 3 t
      = ((cfg0.win 3).blk t).view.read (Elt Ideal) (Cert.Gcn.projScaled (V c main_arg0) (V c main_arg2) (V c main_v11)) := by
  show (cfg0.win 3).cut (grid0.coords t) ((dat0 V c).after 3 t) = _
  rw [after0_3]
  unfold out0_3
  rw [View.canon_unit_zero hz]
  simp only [View.ld_unit_zero (S := S2000x768) hz, View.ld_unit_zero (S := S768x128) hz, View.ld_unit_zero (S := S2000x1) hz]
  obtain ⟨e0, e1, e2, e3, e4, e5, e6, e7⟩ := idx_facts t
  funext j
  have hj0 : (j 0).val < 2000 := (j 0).isLt
  have hj1 : (j 1).val < 128 := (j 1).isLt
  show k0_pay1 (F := Ideal) (iblk0 V c 0 t) (iblk0 V c 1 t) (iblk0 V c 2 t) j
    = Cert.Gcn.projScaled (V c main_arg0) (V c main_arg2) (V c main_v11) (((cfg0.win 3).blk t).view.emb j)
  refine point (V c main_arg0) (V c main_arg2) (V c main_v11) _ _ _ j _ (fun k => ?_) (fun k => ?_) ?_
  · show V c main_arg0 (((cfg0.win 0).blk t).view.emb (ix2 (j 0) k)) = V c main_arg0 (ix2 ((((cfg0.win 3).blk t).view.emb j) 0) k)
    refine congrArg (V c main_arg0) ?_
    funext a; apply Fin.ext
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 768 + 1 * k.val = k.val; omega
  · show V c main_arg2 (((cfg0.win 1).blk t).view.emb (ix2 k (j 1))) = V c main_arg2 (ix2 k ((((cfg0.win 3).blk t).view.emb j) 1))
    refine congrArg (V c main_arg2) ?_
    funext a; apply Fin.ext
    match a with
    | ⟨0, _⟩ => show win0_1.index t (0 : Fin 2) * 768 + 1 * k.val = k.val; omega
    | ⟨1, _⟩ => show win0_1.index t (1 : Fin 2) * 128 + 1 * (j 1).val = win0_3.index t (1 : Fin 2) * 128 + 1 * (j 1).val; omega
  · show V c main_v11 (((cfg0.win 2).blk t).view.emb (ix2 (j 0) (0 : Fin 1))) = V c main_v11 (ix2 ((((cfg0.win 3).blk t).view.emb j) 0) (0 : Fin 1))
    refine congrArg (V c main_v11) ?_
    funext a; apply Fin.ext
    match a with
    | ⟨0, _⟩ => show win0_2.index t (0 : Fin 2) * 2000 + 1 * (j 0).val = win0_3.index t (0 : Fin 2) * 2000 + 1 * (j 0).val; omega
    | ⟨1, _⟩ => show win0_2.index t (1 : Fin 2) * 1 + 1 * 0 = 0; omega

/-- An index of the result array is in point `t`'s tile iff each coordinate is in the tile's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v12).slice (win0_3.rect t)).set ↔ _
  rw [View.set_slice_whole, Rect.mem_set_unit]
  exact Iff.rfl

/-- THE TILES COVER THE ARRAY: row `r` is in the tile of the point whose row-tile number is `r / 2000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE RESULT ARRAY after the region: `projScaled` of the three arrays as the region found them. -/
theorem final (c : Dev nD) :
    (dat0 V c).arrAt 3 cfg0.N = Cert.Gcn.projScaled (V c main_arg0) (V c main_arg2) (V c main_v11) :=
  (dat0 V c).arrAt_eq_of_cover 3 _ (fun t _ => flushed_eq V c t) cover

end Cert.KernelIdeal.Region0

end
-- ==== Proof.Region1.lean ====
/-
  The second pipelined region's result as one whole array.

  Again 25 tiles of 2000 node rows. At a tile the body holds the tile's rows of the neighbour sums `a`, of the scaled
  projection `y` and of the degree column `d`, the whole bias row `b` and the whole second weight matrix `w`, and
  stores `(max (d · (a + y) + b) 0 · w) * d`. Entry `(p, g)` of the tile is entry `(2000·t + p, g)` of
  `hiddenScaled a y d b w`; the tiles cover every row.
-/
import proofs.«154383_j78194174591377_2_alg».proof.Proof.Gen.KernelIdeal.Frame
import proofs.«154383_j78194174591377_2_alg».proof.Proof.Layers
import proofs.«154383_j78194174591377_2_alg».proof.Proof.LibPlainDot
import proofs.«154383_j78194174591377_2_alg».proof.Proof.LibColumns
import Idealize.ShloMosaic.Lib.Pipeline.Value
import Idealize.ShloMosaic.Lib.ValueLayout

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at `(p, g)`. -/
theorem payload_apply (v0 : Vec Ideal S2000x1 .f32) (v2 v4 : Vec Ideal S2000x128 .f32) (v9 : Vec Ideal S1x128 .f32)
    (v16 : Vec Ideal S128x64 .f32) (p : Fin 2000) (g : Fin 64) :
    k1_pay1 (F := Ideal) v0 v2 v4 v9 v16 (ix2 p g)
      = (∑ f : Fin 128, max (v0 (ix2 p (0 : Fin 1)) * (v2 (ix2 p f) + v4 (ix2 p f)) + v9 (ix2 (0 : Fin 1) f)) Cert.Gcn.zeroWord
          * v16 (ix2 f g)) * v0 (ix2 p (0 : Fin 1)) := by
  unfold k1_pay1
  refine congrArg₂ (· * ·) ?_ ?_
  · refine (PlainDot.matmul_zero_apply dot_S2000x128_S128x64_S2000x64_1_0_0_1_n_n rfl none _ _ p g).trans ?_
    refine Finset.sum_congr rfl fun f _ => ?_
    refine congrArg (· * v16 (ix2 f g)) ?_
    refine congrArg (fun z => max z Cert.Gcn.zeroWord) ?_
    refine congrArg₂ (· + ·) (congrArg₂ (· * ·) ?_ ?_) ?_
    · refine (broadcastTo_a1_ab_apply _ _ p f).trans ?_
      rw [shapeCast_self]
    · rw [shapeCast_self, shapeCast_self]; rfl
    · refine (broadcastTo_1b_ab_apply _ _ p f).trans ?_
      rw [shapeCast_self]
  · refine (broadcastTo_a1_ab_apply _ _ p g).trans ?_
    rw [shapeCast_self]

theorem hz : (![0, 0] : Fin 2 → Nat) = fun _ => 0 := funext fun a => by fin_cases a <;> rfl

/-- The printed index maps over the grid: the row tiles of the neighbour sums, the projection, the degree column and
    the result move together; the bias row and the weights stay; there are 25 row tiles. -/
theorem idx_facts : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = win1_5.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) ≤ 24 :=
  (by decide +kernel : ∀ t : Fin grid1.N, _)

/-- Every row tile is some point's. -/
theorem idx_onto : ∀ q0 : Fin 25, ∃ t : Fin cfg1.N, win1_5.index t = ![q0.val, 0] :=
  (by decide +kernel : ∀ q0 : Fin 25, ∃ t : Fin grid1.N, win1_5.index t = ![q0.val, 0])

/-- ONE ENTRY of a tile: if the tile's blocks are the rows and columns that entry `i` of the whole array reads, the
    stored value at `y` is `hiddenScaled` at `i`. -/
theorem point (A Y : S50000x128.Idx → EReal) (D : S50000x1.Idx → EReal) (B : S1x128.Idx → EReal) (W : S128x64.Idx → EReal)
    (x0 x1 : Vec Ideal S2000x128 .f32) (x2 : Vec Ideal S2000x1 .f32) (x3 : Vec Ideal S1x128 .f32) (x4 : Vec Ideal S128x64 .f32)
    (y : S2000x64.Idx) (i : S50000x64.Idx)
    (h0 : ∀ f : Fin 128, x0 (ix2 (y 0) f) = A (ix2 (i 0) f))
    (h1 : ∀ f : Fin 128, x1 (ix2 (y 0) f) = Y (ix2 (i 0) f))
    (h2 : x2 (ix2 (y 0) (0 : Fin 1)) = D (ix2 (i 0) (0 : Fin 1)))
    (h3 : ∀ f : Fin 128, x3 (ix2 (0 : Fin 1) f) = B (ix2 (0 : Fin 1) f))
    (h4 : ∀ f : Fin 128, x4 (ix2 f (y 1)) = W (ix2 f (i 1))) :
    k1_pay1 (F := Ideal) x2 x0 x1 x3 x4 y = Cert.Gcn.hiddenScaled A Y D B W i := by
  obtain ⟨p, g, rfl⟩ : ∃ (p : Fin 2000) (g : Fin 64), y = ix2 p g := ⟨y 0, y 1, eq_ix2 y⟩
  have h0' : ∀ f : Fin 128, x0 (ix2 p f) = A (ix2 (i 0) f) := h0
  have h1' : ∀ f : Fin 128, x1 (ix2 p f) = Y (ix2 (i 0) f) := h1
  have h2' : x2 (ix2 p (0 : Fin 1)) = D (ix2 (i 0) (0 : Fin 1)) := h2
  have h4' : ∀ f : Fin 128, x4 (ix2 f g) = W (ix2 f (i 1)) := h4
  rw [payload_apply, h2']
  unfold Cert.Gcn.hiddenScaled Cert.Gcn.hidden
  refine congrArg (· * D (ix2 (i 0) (0 : Fin 1))) ?_
  exact Finset.sum_congr rfl fun f _ => by rw [h0' f, h1' f, h3 f, h4' f]

variable (V : (c : Dev nD) → (b : Ref sig .tc) → Buf (Elt Ideal) ((c : Thread nD τ).loc b))

/-- WHAT POINT `t` WRITES BACK is tile `t` of `hiddenScaled` of the arrays as the region finds them. -/
theorem flushed_eq (c : Dev nD) (t : Fin cfg1.N) :
    (dat1 V c).flushed 5 t
      = ((cfg1.win 5).blk t).view.read (Elt Ideal)
          (Cert.Gcn.hiddenScaled (V c main_v22) (V c main_v12) (V c main_v11) (V c main_v23) (V c main_arg4)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz,
    View.ld_unit_zero (S := S128x64) hz]
  obtain ⟨e0, e1, e2, e3, e4, e5, e6, e7, e8, e9, e10, e11⟩ := idx_facts t
  funext j
  have hj0 : (j 0).val < 2000 := (j 0).isLt
  have hj1 : (j 1).val < 64 := (j 1).isLt
  show k1_pay1 (F := Ideal) (iblk1 V c 2 t) (iblk1 V c 0 t) (iblk1 V c 1 t) (iblk1 V c 3 t) (iblk1 V c 4 t) j
    = Cert.Gcn.hiddenScaled (V c main_v22) (V c main_v12) (V c main_v11) (V c main_v23) (V c main_arg4) (((cfg1.win 5).blk t).view.emb j)
  refine point (V c main_v22) (V c main_v12) (V c main_v11) (V c main_v23) (V c main_arg4) _ _ _ _ _ j _
    (fun f => ?_) (fun f => ?_) ?_ (fun f => ?_) (fun f => ?_)
  · show V c main_v22 (((cfg1.win 0).blk t).view.emb (ix2 (j 0) f)) = V c main_v22 (ix2 ((((cfg1.win 5).blk t).view.emb j) 0) f)
    refine congrArg (V c main_v22) ?_
    funext a; apply Fin.ext
    match a with
    | ⟨0, _⟩ => show win1_0.index t (0 : Fin 2) * 2000 + 1 * (j 0).val = win1_5.index t (0 : Fin 2) * 2000 + 1 * (j 0).val; omega
    | ⟨1, _⟩ => show win1_0.index t (1 : Fin 2) * 128 + 1 * f.val = f.val; omega
  · show V c main_v12 (((cfg1.win 1).blk t).view.emb (ix2 (j 0) f)) = V c main_v12 (ix2 ((((cfg1.win 5).blk t).view.emb j) 0) f)
    refine congrArg (V c main_v12) ?_
    funext a; apply Fin.ext
    match a with
    | ⟨0, _⟩ => show win1_1.index t (0 : Fin 2) * 2000 + 1 * (j 0).val = win1_5.index t (0 : Fin 2) * 2000 + 1 * (j 0).val; omega
    | ⟨1, _⟩ => show win1_1.index t (1 : Fin 2) * 128 + 1 * f.val = f.val; omega
  · show V c main_v11 (((cfg1.win 2).blk t).view.emb (ix2 (j 0) (0 : Fin 1))) = V c main_v11 (ix2 ((((cfg1.win 5).blk t).view.emb j) 0) (0 : Fin 1))
    refine congrArg (V c main_v11) ?_
    funext a; apply Fin.ext
    match a with
    | ⟨0, _⟩ => show win1_2.index t (0 : Fin 2) * 2000 + 1 * (j 0).val = win1_5.index t (0 : Fin 2) * 2000 + 1 * (j 0).val; omega
    | ⟨1, _⟩ => show win1_2.index t (1 : Fin 2) * 1 + 1 * 0 = 0; omega
  · show V c main_v23 (((cfg1.win 3).blk t).view.emb (ix2 (0 : Fin 1) f)) = V c main_v23 (ix2 (0 : Fin 1) f)
    refine congrArg (V c main_v23) ?_
    funext a; apply Fin.ext
    match a with
    | ⟨0, _⟩ => show win1_3.index t (0 : Fin 2) * 1 + 1 * 0 = 0; omega
    | ⟨1, _⟩ => show win1_3.index t (1 : Fin 2) * 128 + 1 * f.val = f.val; omega
  · show V c main_arg4 (((cfg1.win 4).blk t).view.emb (ix2 f (j 1))) = V c main_arg4 (ix2 f ((((cfg1.win 5).blk t).view.emb j) 1))
    refine congrArg (V c main_arg4) ?_
    funext a; apply Fin.ext
    match a with
    | ⟨0, _⟩ => show win1_4.index t (0 : Fin 2) * 128 + 1 * f.val = f.val; omega
    | ⟨1, _⟩ => show win1_4.index t (1 : Fin 2) * 64 + 1 * (j 1).val = win1_5.index t (1 : Fin 2) * 64 + 1 * (j 1).val; omega

/-- An index of the result array is in point `t`'s tile iff each coordinate is in the tile's range on its axis. -/
theorem mem_blk (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v24).slice (win1_5.rect t)).set ↔ _
  rw [View.set_slice_whole, Rect.mem_set_unit]
  exact Iff.rfl

/-- THE TILES COVER THE ARRAY: row `r` is in the tile of the point whose row-tile number is `r / 2000`. -/
theorem cover (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  obtain ⟨t, ht⟩ := idx_onto ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 64 ≤ (i 1).val ∧ (i 1).val < win1_5.index t (1 : Fin 2) * 64 + 64; omega

/-- THE RESULT ARRAY after the region: `hiddenScaled` of the five arrays as the region found them. -/
theorem final (c : Dev nD) :
    (dat1 V c).arrAt 5 cfg1.N
      = Cert.Gcn.hiddenScaled (V c main_v22) (V c main_v12) (V c main_v11) (V c main_v23) (V c main_arg4) :=
  (dat1 V c).arrAt_eq_of_cover 5 _ (fun t _ => flushed_eq V c t) cover

end Cert.KernelIdeal.Region1

end
-- ==== Proof.Region2.lean ====
/-
  The third pipelined region's result as one whole array.

  25 tiles of 2000 node rows once more. At a tile the body holds the tile's rows of the second neighbour sums `a`, of the
  second scaled projection `y` and of the degree column `d`, the whole bias row `b`, the whole classifier matrix `w`
  and its bias row `bc`, and stores `(d · (a + y) + b) · w + bc`. Entry `(p, j)` of the tile is entry
  `(2000·t + p, j)` of `classify a y d b w bc`; the tiles cover every row.
-/
import proofs.«154383_j78194174591377_2_alg».proof.Proof.Gen.KernelIdeal.Frame
import proofs.«154383_j78194174591377_2_alg».proof.Proof.Layers
import proofs.«154383_j78194174591377_2_alg».proof.Proof.LibPlainDot
import proofs.«154383_j78194174591377_2_alg».proof.Proof.LibColumns
import Idealize.ShloMosaic.Lib.Pipeline.Value
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The body's stored value at `(p, j)`. -/
theorem payload_apply (v0 : Vec Ideal S2000x1 .f32) (v2 v4 : Vec Ideal S2000x64 .f32) (v9 : Vec Ideal S1x64 .f32)
    (v14 : Vec Ideal S64x2 .f32) (v17 : Vec Ideal S1x2 .f32) (p : Fin 2000) (j : Fin 2) :
    k2_pay1 (F := Ideal) v0 v2 v4 v9 v14 v17 (ix2 p j)
      = (∑ g : Fin 64, (v0 (ix2 p (0 : Fin 1)) * (v2 (ix2 p g) + v4 (ix2 p g)) + v9 (ix2 (0 : Fin 1) g)) * v14 (ix2 g j))
          + v17 (ix2 (0 : Fin 1) j) := by
  unfold k2_pay1
  refine congrArg₂ (fun a b : EReal => a + b) ?_ ?_
  · refine (PlainDot.matmul_zero_apply dot_S2000x64_S64x2_S2000x2_1_0_0_1_n_n rfl none _ _ p j).trans ?_
    refine Finset.sum_congr rfl fun g _ => ?_
    refine congrArg (· * v14 (ix2 g j)) ?_
    refine congrArg₂ (fun a b : EReal => a + b) (congrArg₂ (fun a b : EReal => a * b) ?_ ?_) ?_
    · refine (broadcastTo_a1_ab_apply _ _ p g).trans ?_
      rw [shapeCast_self]
    · rw [shapeCast_self, shapeCast_self]; rfl
    · refine (broadcastTo_1b_ab_apply _ _ p g).trans ?_
      rw [shapeCast_self]
  · refine (broadcastTo_1b_ab_apply _ _ p j).trans ?_
    rw [shapeCast_self]

theorem hz : (![0, 0] : Fin 2 → Nat) = fun _ => 0 := funext fun a => by fin_cases a <;> rfl

/-- The printed index maps over the grid: the row tiles of the neighbour sums, the projection, the degree column and
    the result move together; the two bias rows and the classifier stay; there are 25 row tiles. -/
theorem idx_facts : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 24 :=
  (by decide +kernel : ∀ t : Fin grid2.N, _)

/-- Every row tile is some point's. -/
theorem idx_onto : ∀ q0 : Fin 25, ∃ t : Fin cfg2.N, win2_6.index t = ![q0.val, 0] :=
  (by decide +kernel : ∀ q0 : Fin 25, ∃ t : Fin grid2.N, win2_6.index t = ![q0.val, 0])

/-- ONE ENTRY of a tile: if the tile's blocks are the rows and columns that entry `i` of the whole array reads, the
    stored value at `y` is `classify` at `i`. -/
theorem point (A Y : S50000x64.Idx → EReal) (D : S50000x1.Idx → EReal) (B : S1x64.Idx → EReal) (W : S64x2.Idx → EReal)
    (BC : S1x2.Idx → EReal)
    (x0 x1 : Vec Ideal S2000x64 .f32) (x2 : Vec Ideal S2000x1 .f32) (x3 : Vec Ideal S1x64 .f32) (x4 : Vec Ideal S64x2 .f32)
    (x5 : Vec Ideal S1x2 .f32) (y : S2000x2.Idx) (i : S50000x2.Idx)
    (h0 : ∀ g : Fin 64, x0 (ix2 (y 0) g) = A (ix2 (i 0) g))
    (h1 : ∀ g : Fin 64, x1 (ix2 (y 0) g) = Y (ix2 (i 0) g))
    (h2 : x2 (ix2 (y 0) (0 : Fin 1)) = D (ix2 (i 0) (0 : Fin 1)))
    (h3 : ∀ g : Fin 64, x3 (ix2 (0 : Fin 1) g) = B (ix2 (0 : Fin 1) g))
    (h4 : ∀ g : Fin 64, x4 (ix2 g (y 1)) = W (ix2 g (i 1)))
    (h5 : x5 (ix2 (0 : Fin 1) (y 1)) = BC (ix2 (0 : Fin 1) (i 1))) :
    k2_pay1 (F := Ideal) x2 x0 x1 x3 x4 x5 y = Cert.Gcn.classify A Y D B W BC i := by
  obtain ⟨p, q, rfl⟩ : ∃ (p : Fin 2000) (q : Fin 2), y = ix2 p q := ⟨y 0, y 1, eq_ix2 y⟩
  have h0' : ∀ g : Fin 64, x0 (ix2 p g) = A (ix2 (i 0) g) := h0
  have h1' : ∀ g : Fin 64, x1 (ix2 p g) = Y (ix2 (i 0) g) := h1
  have h2' : x2 (ix2 p (0 : Fin 1)) = D (ix2 (i 0) (0 : Fin 1)) := h2
  have h4' : ∀ g : Fin 64, x4 (ix2 g q) = W (ix2 g (i 1)) := h4
  have h5' : x5 (ix2 (0 : Fin 1) q) = BC (ix2 (0 : Fin 1) (i 1)) := h5
  rw [payload_apply, h5']
  unfold Cert.Gcn.classify Cert.Gcn.embed
  refine congrArg (· + BC (ix2 (0 : Fin 1) (i 1))) ?_
  exact Finset.sum_congr rfl fun g _ => by rw [h0' g, h1' g, h2', h3 g, h4' g]

variable (V : (c : Dev nD) → (b : Ref sig .tc) → Buf (Elt Ideal) ((c : Thread nD τ).loc b))

/-- WHAT POINT `t` WRITES BACK is tile `t` of `classify` of the arrays as the region finds them. -/
theorem flushed_eq (c : Dev nD) (t : Fin cfg2.N) :
    (dat2 V c).flushed 6 t
      = ((cfg2.win 6).blk t).view.read (Elt Ideal)
          (Cert.Gcn.classify (V c main_v34) (V c main_v24) (V c main_v11) (V c main_v35) (V c main_arg6) (V c main_v36)) := by
  show (cfg2.win 6).cut (grid2.coords t) ((dat2 V c).after 6 t) = _
  rw [after2_6]
  unfold out2_6
  rw [View.canon_unit_zero hz]
  simp only [View.ld_unit_zero (S := S2000x64) hz, View.ld_unit_zero (S := S2000x1) hz, View.ld_unit_zero (S := S1x64) hz,
    View.ld_unit_zero (S := S64x2) hz, View.ld_unit_zero (S := S1x2) hz]
  obtain ⟨e0, e1, e2, e3, e4, e5, e6, e7, e8, e9, e10, e11, e12, e13⟩ := idx_facts t
  funext j
  have hj0 : (j 0).val < 2000 := (j 0).isLt
  have hj1 : (j 1).val < 2 := (j 1).isLt
  show k2_pay1 (F := Ideal) (iblk2 V c 2 t) (iblk2 V c 0 t) (iblk2 V c 1 t) (iblk2 V c 3 t) (iblk2 V c 4 t) (iblk2 V c 5 t) j
    = Cert.Gcn.classify (V c main_v34) (V c main_v24) (V c main_v11) (V c main_v35) (V c main_arg6) (V c main_v36)
        (((cfg2.win 6).blk t).view.emb j)
  refine point (V c main_v34) (V c main_v24) (V c main_v11) (V c main_v35) (V c main_arg6) (V c main_v36) _ _ _ _ _ _ j _
    (fun g => ?_) (fun g => ?_) ?_ (fun g => ?_) (fun g => ?_) ?_
  · show V c main_v34 (((cfg2.win 0).blk t).view.emb (ix2 (j 0) g)) = V c main_v34 (ix2 ((((cfg2.win 6).blk t).view.emb j) 0) g)
    refine congrArg (V c main_v34) ?_
    funext a; apply Fin.ext
    match a with
    | ⟨0, _⟩ => show win2_0.index t (0 : Fin 2) * 2000 + 1 * (j 0).val = win2_6.index t (0 : Fin 2) * 2000 + 1 * (j 0).val; omega
    | ⟨1, _⟩ => show win2_0.index t (1 : Fin 2) * 64 + 1 * g.val = g.val; omega
  · show V c main_v24 (((cfg2.win 1).blk t).view.emb (ix2 (j 0) g)) = V c main_v24 (ix2 ((((cfg2.win 6).blk t).view.emb j) 0) g)
    refine congrArg (V c main_v24) ?_
    funext a; apply Fin.ext
    match a with
    | ⟨0, _⟩ => show win2_1.index t (0 : Fin 2) * 2000 + 1 * (j 0).val = win2_6.index t (0 : Fin 2) * 2000 + 1 * (j 0).val; omega
    | ⟨1, _⟩ => show win2_1.index t (1 : Fin 2) * 64 + 1 * g.val = g.val; omega
  · show V c main_v11 (((cfg2.win 2).blk t).view.emb (ix2 (j 0) (0 : Fin 1))) = V c main_v11 (ix2 ((((cfg2.win 6).blk t).view.emb j) 0) (0 : Fin 1))
    refine congrArg (V c main_v11) ?_
    funext a; apply Fin.ext
    match a with
    | ⟨0, _⟩ => show win2_2.index t (0 : Fin 2) * 2000 + 1 * (j 0).val = win2_6.index t (0 : Fin 2) * 2000 + 1 * (j 0).val; omega
    | ⟨1, _⟩ => show win2_2.index t (1 : Fin 2) * 1 + 1 * 0 = 0; omega
  · show V c main_v35 (((cfg2.win 3).blk t).view.emb (ix2 (0 : Fin 1) g)) = V c main_v35 (ix2 (0 : Fin 1) g)
    refine congrArg (V c main_v35) ?_
    funext a; apply Fin.ext
    match a with
    | ⟨0, _⟩ => show win2_3.index t (0 : Fin 2) * 1 + 1 * 0 = 0; omega
    | ⟨1, _⟩ => show win2_3.index t (1 : Fin 2) * 64 + 1 * g.val = g.val; omega
  · show V c main_arg6 (((cfg2.win 4).blk t).view.emb (ix2 g (j 1))) = V c main_arg6 (ix2 g ((((cfg2.win 6).blk t).view.emb j) 1))
    refine congrArg (V c main_arg6) ?_
    funext a; apply Fin.ext
    match a with
    | ⟨0, _⟩ => show win2_4.index t (0 : Fin 2) * 64 + 1 * g.val = g.val; omega
    | ⟨1, _⟩ => show win2_4.index t (1 : Fin 2) * 2 + 1 * (j 1).val = win2_6.index t (1 : Fin 2) * 2 + 1 * (j 1).val; omega
  · show V c main_v36 (((cfg2.win 5).blk t).view.emb (ix2 (0 : Fin 1) (j 1))) = V c main_v36 (ix2 (0 : Fin 1) ((((cfg2.win 6).blk t).view.emb j) 1))
    refine congrArg (V c main_v36) ?_
    funext a; apply Fin.ext
    match a with
    | ⟨0, _⟩ => show win2_5.index t (0 : Fin 2) * 1 + 1 * 0 = 0; omega
    | ⟨1, _⟩ => show win2_5.index t (1 : Fin 2) * 2 + 1 * (j 1).val = win2_6.index t (1 : Fin 2) * 2 + 1 * (j 1).val; omega

/-- An index of the result array is in point `t`'s tile iff each coordinate is in the tile's range on its axis. -/
theorem mem_blk (t : Fin cfg2.N) (i : S50000x2.Idx) :
    i ∈ ((cfg2.win 6).blk t).view.set ↔ ∀ a : Fin 2, win2_6.index t a * S2000x2.size a ≤ (i a).val ∧ (i a).val < win2_6.index t a * S2000x2.size a + S2000x2.size a := by
  show i ∈ ((View.whole main_v37).slice (win2_6.rect t)).set ↔ _
  rw [View.set_slice_whole, Rect.mem_set_unit]
  exact Iff.rfl

/-- THE TILES COVER THE ARRAY: row `r` is in the tile of the point whose row-tile number is `r / 2000`. -/
theorem cover (i : S50000x2.Idx) : ∃ t : Fin cfg2.N, (cfg2.win 6).flush t = true ∧ i ∈ ((cfg2.win 6).blk t).view.set := by
  have hi0 : (i 0).val < 50000 := (i 0).isLt
  have hi1 : (i 1).val < 2 := (i 1).isLt
  obtain ⟨t, ht⟩ := idx_onto ⟨(i 0).val / 2000, by omega⟩
  have q0 : win2_6.index t (0 : Fin 2) = (i 0).val / 2000 := congrFun ht 0
  have q1 : win2_6.index t (1 : Fin 2) = 0 := congrFun ht 1
  refine ⟨t, flush2_6 t, ?_⟩
  rw [mem_blk]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 2 ≤ (i 1).val ∧ (i 1).val < win2_6.index t (1 : Fin 2) * 2 + 2; omega

/-- THE RESULT ARRAY after the region: `classify` of the six arrays as the region found them. -/
theorem final (c : Dev nD) :
    (dat2 V c).arrAt 6 cfg2.N
      = Cert.Gcn.classify (V c main_v34) (V c main_v24) (V c main_v11) (V c main_v35) (V c main_arg6) (V c main_v36) :=
  (dat2 V c).arrAt_eq_of_cover 6 _ (fun t _ => flushed_eq V c t) cover

end Cert.KernelIdeal.Region2

end
-- ==== Proof.KernelValue.lean ====
/-
  The idealized kernel's result as a function of its arguments.

  The final valuation of the run is a fold through @main: host operations, a region, host operations, a region, host
  operations, a region. Read backwards from the result buffer: the last region leaves `classify` of six arrays; two of
  them are written by the stretch before it (the neighbour sums of the second projection; the reshaped biases), one by
  the region before that (`hiddenScaled`), and so on down to the degree column and the edge rows, which the first
  stretch computes from the edge array. Composed, the result is `Cert.Gcn.network` of the launch contents of the eight
  arguments.
-/
import proofs.«154383_j78194174591377_2_alg».proof.Proof.KernelRun
import proofs.«154383_j78194174591377_2_alg».proof.Proof.Region0
import proofs.«154383_j78194174591377_2_alg».proof.Proof.Region1
import proofs.«154383_j78194174591377_2_alg».proof.Proof.Region2
import Idealize.ShloMosaic.Lib.StableHlo.Run

set_option maxRecDepth 16384

noncomputable section

namespace Cert.KernelIdeal.Named

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The first stretch: the edge rows and the degree column -/

theorem W1_v1 : W1 m ρ c (Proc.devRef .tc main_v1) = Cert.Gcn.edgeRow0 (m ((c : Thread nD τ).loc main_arg1)) := by
  show StableHlo.after hostOps0 (W0 m ρ c) (Proc.devRef .tc main_v1) = _
  after_results
  rfl

theorem W1_v3 : W1 m ρ c (Proc.devRef .tc main_v3) = Cert.Gcn.edgeRow1 (m ((c : Thread nD τ).loc main_arg1)) := by
  show StableHlo.after hostOps0 (W0 m ρ c) (Proc.devRef .tc main_v3) = _
  after_results
  rfl

theorem W1_v11 : W1 m ρ c (Proc.devRef .tc main_v11) = Cert.Gcn.degCol (m ((c : Thread nD τ).loc main_arg1)) := by
  show StableHlo.after hostOps0 (W0 m ρ c) (Proc.devRef .tc main_v11) = _
  after_results
  rfl

theorem W1_main_arg0 : W1 m ρ c (Proc.devRef .tc main_arg0) = (m ((c : Thread nD τ).loc main_arg0)) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg2 : W1 m ρ c (Proc.devRef .tc main_arg2) = (m ((c : Thread nD τ).loc main_arg2)) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg3 : W1 m ρ c (Proc.devRef .tc main_arg3) = (m ((c : Thread nD τ).loc main_arg3)) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg4 : W1 m ρ c (Proc.devRef .tc main_arg4) = (m ((c : Thread nD τ).loc main_arg4)) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg5 : W1 m ρ c (Proc.devRef .tc main_arg5) = (m ((c : Thread nD τ).loc main_arg5)) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg6 : W1 m ρ c (Proc.devRef .tc main_arg6) = (m ((c : Thread nD τ).loc main_arg6)) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

theorem W1_main_arg7 : W1 m ρ c (Proc.devRef .tc main_arg7) = (m ((c : Thread nD τ).loc main_arg7)) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-! ## The first region: the scaled first projection -/

theorem W2_v12 : W2 m ρ c (Proc.devRef .tc main_v12) = (Cert.Gcn.stage1 (m ((c : Thread nD τ).loc main_arg0)) (m ((c : Thread nD τ).loc main_arg1)) (m ((c : Thread nD τ).loc main_arg2))) := by
  refine (W2_arr m ρ c 3).trans ((Region0.final (V1 m ρ) c).trans ?_)
  show Cert.Gcn.projScaled (W1 m ρ c (Proc.devRef .tc main_arg0)) (W1 m ρ c (Proc.devRef .tc main_arg2))
    (W1 m ρ c (Proc.devRef .tc main_v11)) = _
  rw [W1_main_arg0, W1_main_arg2, W1_v11]
  rfl

theorem W2_v11 : W2 m ρ c (Proc.devRef .tc main_v11) = Cert.Gcn.degCol (m ((c : Thread nD τ).loc main_arg1)) :=
  ((W2_arr m ρ c 2).trans (((dat0 (V1 m ρ) c).arrAt_in 2 rfl _).trans (A_eq0 (V1 m ρ) c 2))).trans (W1_v11 m ρ c)

theorem W2_v1 : W2 m ρ c (Proc.devRef .tc main_v1) = Cert.Gcn.edgeRow0 (m ((c : Thread nD τ).loc main_arg1)) :=
  (W2_of_ne m ρ c main_v1 (by decide)).trans (W1_v1 m ρ c)
theorem W2_v3 : W2 m ρ c (Proc.devRef .tc main_v3) = Cert.Gcn.edgeRow1 (m ((c : Thread nD τ).loc main_arg1)) :=
  (W2_of_ne m ρ c main_v3 (by decide)).trans (W1_v3 m ρ c)
theorem W2_main_arg3 : W2 m ρ c (Proc.devRef .tc main_arg3) = (m ((c : Thread nD τ).loc main_arg3)) :=
  (W2_of_ne m ρ c main_arg3 (by decide)).trans (W1_main_arg3 m ρ c)
theorem W2_main_arg4 : W2 m ρ c (Proc.devRef .tc main_arg4) = (m ((c : Thread nD τ).loc main_arg4)) :=
  (W2_of_ne m ρ c main_arg4 (by decide)).trans (W1_main_arg4 m ρ c)
theorem W2_main_arg5 : W2 m ρ c (Proc.devRef .tc main_arg5) = (m ((c : Thread nD τ).loc main_arg5)) :=
  (W2_of_ne m ρ c main_arg5 (by decide)).trans (W1_main_arg5 m ρ c)
theorem W2_main_arg6 : W2 m ρ c (Proc.devRef .tc main_arg6) = (m ((c : Thread nD τ).loc main_arg6)) :=
  (W2_of_ne m ρ c main_arg6 (by decide)).trans (W1_main_arg6 m ρ c)
theorem W2_main_arg7 : W2 m ρ c (Proc.devRef .tc main_arg7) = (m ((c : Thread nD τ).loc main_arg7)) :=
  (W2_of_ne m ρ c main_arg7 (by decide)).trans (W1_main_arg7 m ρ c)

/-! ## The second stretch: the first neighbour sums and the first bias row -/

theorem W3_v22 : W3 m ρ c (Proc.devRef .tc main_v22) = Cert.Gcn.neighbourSum128 (m ((c : Thread nD τ).loc main_arg1)) (Cert.Gcn.stage1 (m ((c : Thread nD τ).loc main_arg0)) (m ((c : Thread nD τ).loc main_arg1)) (m ((c : Thread nD τ).loc main_arg2))) := by
  show StableHlo.after hostOps1 (W2 m ρ c) (Proc.devRef .tc main_v22) = _
  after_results
  rw [W2_v1, W2_v3, W2_v12]
  rfl

theorem W3_v23 : W3 m ρ c (Proc.devRef .tc main_v23) = shapeCast S1x128 (m ((c : Thread nD τ).loc main_arg3)) Facts₀.shapeCasts_S128_S1x128 := by
  show StableHlo.after hostOps1 (W2 m ρ c) (Proc.devRef .tc main_v23) = _
  after_results
  rw [W2_main_arg3]
  rfl

theorem W3_v12 : W3 m ρ c (Proc.devRef .tc main_v12) = (Cert.Gcn.stage1 (m ((c : Thread nD τ).loc main_arg0)) (m ((c : Thread nD τ).loc main_arg1)) (m ((c : Thread nD τ).loc main_arg2))) :=
  (StableHlo.after_of_forall_not_mem (b := Proc.devRef .tc main_v12) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v12 m ρ c)
theorem W3_v11 : W3 m ρ c (Proc.devRef .tc main_v11) = Cert.Gcn.degCol (m ((c : Thread nD τ).loc main_arg1)) :=
  (StableHlo.after_of_forall_not_mem (b := Proc.devRef .tc main_v11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v11 m ρ c)
theorem W3_v1 : W3 m ρ c (Proc.devRef .tc main_v1) = Cert.Gcn.edgeRow0 (m ((c : Thread nD τ).loc main_arg1)) :=
  (StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v1 m ρ c)
theorem W3_v3 : W3 m ρ c (Proc.devRef .tc main_v3) = Cert.Gcn.edgeRow1 (m ((c : Thread nD τ).loc main_arg1)) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_v3 m ρ c)
theorem W3_main_arg4 : W3 m ρ c (Proc.devRef .tc main_arg4) = (m ((c : Thread nD τ).loc main_arg4)) :=
  (StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg4 m ρ c)
theorem W3_main_arg5 : W3 m ρ c (Proc.devRef .tc main_arg5) = (m ((c : Thread nD τ).loc main_arg5)) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg5 m ρ c)
theorem W3_main_arg6 : W3 m ρ c (Proc.devRef .tc main_arg6) = (m ((c : Thread nD τ).loc main_arg6)) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg6 m ρ c)
theorem W3_main_arg7 : W3 m ρ c (Proc.devRef .tc main_arg7) = (m ((c : Thread nD τ).loc main_arg7)) :=
  (StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_main_arg7 m ρ c)

/-! ## The second region: the scaled second projection -/

theorem W4_v24 : W4 m ρ c (Proc.devRef .tc main_v24) = (Cert.Gcn.stage2 (m ((c : Thread nD τ).loc main_arg0)) (m ((c : Thread nD τ).loc main_arg1)) (m ((c : Thread nD τ).loc main_arg2)) (m ((c : Thread nD τ).loc main_arg3)) (m ((c : Thread nD τ).loc main_arg4))) := by
  refine (W4_arr m ρ c 5).trans ((Region1.final (V3 m ρ) c).trans ?_)
  show Cert.Gcn.hiddenScaled (W3 m ρ c (Proc.devRef .tc main_v22)) (W3 m ρ c (Proc.devRef .tc main_v12))
    (W3 m ρ c (Proc.devRef .tc main_v11)) (W3 m ρ c (Proc.devRef .tc main_v23)) (W3 m ρ c (Proc.devRef .tc main_arg4)) = _
  rw [W3_v22, W3_v12, W3_v11, W3_v23, W3_main_arg4]
  rfl

theorem W4_v11 : W4 m ρ c (Proc.devRef .tc main_v11) = Cert.Gcn.degCol (m ((c : Thread nD τ).loc main_arg1)) :=
  ((W4_arr m ρ c 2).trans (((dat1 (V3 m ρ) c).arrAt_in 2 rfl _).trans (A_eq1 (V3 m ρ) c 2))).trans (W3_v11 m ρ c)
theorem W4_v1 : W4 m ρ c (Proc.devRef .tc main_v1) = Cert.Gcn.edgeRow0 (m ((c : Thread nD τ).loc main_arg1)) :=
  (W4_of_ne m ρ c main_v1 (by decide)).trans (W3_v1 m ρ c)
theorem W4_v3 : W4 m ρ c (Proc.devRef .tc main_v3) = Cert.Gcn.edgeRow1 (m ((c : Thread nD τ).loc main_arg1)) :=
  (W4_of_ne m ρ c main_v3 (by decide)).trans (W3_v3 m ρ c)
theorem W4_main_arg5 : W4 m ρ c (Proc.devRef .tc main_arg5) = (m ((c : Thread nD τ).loc main_arg5)) :=
  (W4_of_ne m ρ c main_arg5 (by decide)).trans (W3_main_arg5 m ρ c)
theorem W4_main_arg6 : W4 m ρ c (Proc.devRef .tc main_arg6) = (m ((c : Thread nD τ).loc main_arg6)) :=
  (W4_of_ne m ρ c main_arg6 (by decide)).trans (W3_main_arg6 m ρ c)
theorem W4_main_arg7 : W4 m ρ c (Proc.devRef .tc main_arg7) = (m ((c : Thread nD τ).loc main_arg7)) :=
  (W4_of_ne m ρ c main_arg7 (by decide)).trans (W3_main_arg7 m ρ c)

/-! ## The third stretch: the second neighbour sums and the last two bias rows -/

theorem W5_v34 : W5 m ρ c (Proc.devRef .tc main_v34) = Cert.Gcn.neighbourSum64 (m ((c : Thread nD τ).loc main_arg1)) (Cert.Gcn.stage2 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W4 m ρ c) (Proc.devRef .tc main_v34) = _
  after_results
  rw [W4_v1, W4_v3, W4_v24]
  rfl

theorem W5_v35 : W5 m ρ c (Proc.devRef .tc main_v35) = shapeCast S1x64 (m ((c : Thread nD τ).loc main_arg5)) Facts₀.shapeCasts_S64_S1x64 := by
  show StableHlo.after hostOps2 (W4 m ρ c) (Proc.devRef .tc main_v35) = _
  after_results
  rw [W4_main_arg5]
  rfl

theorem W5_v36 : W5 m ρ c (Proc.devRef .tc main_v36) = shapeCast S1x2 (m ((c : Thread nD τ).loc main_arg7)) Facts₀.shapeCasts_S2_S1x2 := by
  show StableHlo.after hostOps2 (W4 m ρ c) (Proc.devRef .tc main_v36) = _
  after_results
  rw [W4_main_arg7]
  rfl

theorem W5_v24 : W5 m ρ c (Proc.devRef .tc main_v24) = (Cert.Gcn.stage2 (m ((c : Thread nD τ).loc main_arg0)) (m ((c : Thread nD τ).loc main_arg1)) (m ((c : Thread nD τ).loc main_arg2)) (m ((c : Thread nD τ).loc main_arg3)) (m ((c : Thread nD τ).loc main_arg4))) :=
  (StableHlo.after_of_forall_not_mem (b := Proc.devRef .tc main_v24) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v24 m ρ c)
theorem W5_v11 : W5 m ρ c (Proc.devRef .tc main_v11) = Cert.Gcn.degCol (m ((c : Thread nD τ).loc main_arg1)) :=
  (StableHlo.after_of_forall_not_mem (b := Proc.devRef .tc main_v11) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_v11 m ρ c)
theorem W5_main_arg6 : W5 m ρ c (Proc.devRef .tc main_arg6) = (m ((c : Thread nD τ).loc main_arg6)) :=
  (StableHlo.after_of_forall_not_mem (b := Proc.devRef .tc main_arg6) _ _ (List.forall_iff_forall_mem.mp (by
      simp only [hostOps2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W4_main_arg6 m ρ c)

/-! ## The third region: the result -/

/-- THE RESULT BUFFER at the final valuation is the network of the launch contents of the arguments. -/
theorem W6_v37 : W6 m ρ c (Proc.devRef .tc main_v37)
    = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W6_arr m ρ c 6).trans ((Region2.final (V5 m ρ) c).trans ?_)
  show Cert.Gcn.classify (W5 m ρ c (Proc.devRef .tc main_v34)) (W5 m ρ c (Proc.devRef .tc main_v24))
    (W5 m ρ c (Proc.devRef .tc main_v11)) (W5 m ρ c (Proc.devRef .tc main_v35)) (W5 m ρ c (Proc.devRef .tc main_arg6))
    (W5 m ρ c (Proc.devRef .tc main_v36)) = _
  rw [W5_v34, W5_v24, W5_v11, W5_v35, W5_main_arg6, W5_v36]
  rfl

/-! ## The run, read -/

/-- Every weakly fair execution of the idealized kernel terminates without a fault with its result at the network of the
    arguments, and the arguments unchanged. -/
theorem run : θ_run defs (onTc (τ := τ) (main (F := Ideal))) ⟨m, fun _ => 0, ρ⟩ (fun r => ∀ c : Dev nD,
      r.2.mem ((c.tc : Thread nD τ).loc main_v37)
        = Cert.Gcn.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W6_v37 m ρ c), (h c).2⟩) (run_named m ρ)

end Cert.KernelIdeal.Named

end
-- ==== Proof.EdgeRows.lean ====
/-
  A row of the edge array, read at an edge.

  The edge array has shape `[2, R]`: row 0 holds every edge's source word and row 1 its target word. Each program takes
  a row out as a `[1, R]` slice and reshapes it to a flat `[R]` vector. Read at edge `e`, that vector is the array at
  `(r, e)`: the slice shifts the row coordinate by `r`, and the reshape keeps the row-major position, which on a
  one-row array is the column.
-/
import Idealize.ShloMosaic.Lib.ValueIdx
import Idealize.ShloMosaic.Lib.Pipeline.Value

noncomputable section

namespace Cert.Gcn.EdgeRows

open Idealize.ShloMosaic Idealize.ShloMosaic.ValueIdx

variable {α : Type} {R : ℕ}

/-- Row 0 of the edge array as a flat vector reads, at `e`, the array at `(0, e)`. -/
theorem row0_apply (x : (⟨2, ![2, R]⟩ : Shape).Idx → α) (hs : (⟨2, ![2, R]⟩ : Shape).Slices ![0, 0] ⟨2, ![1, R]⟩)
    (hc : (⟨2, ![1, R]⟩ : Shape).ShapeCasts ⟨1, ![R]⟩) (e : Fin R) :
    shapeCast ⟨1, ![R]⟩ (extractStridedSlice ⟨2, ![1, R]⟩ ![0, 0] x hs) hc (ix1 e) = x (ix2 (0 : Fin 2) e) := by
  rw [shapeCast_apply _ hc (ix1 e) (ix2 (0 : Fin 1) e) (by
    rw [Shape.rowMajor_val_two, Shape.rowMajor_val_one]
    show 0 * R + e.val = e.val
    omega)]
  exact extractStridedSlice_apply ![0, 0] x hs (ix2 (0 : Fin 1) e) (ix2 (0 : Fin 2) e) (fun a => by
    match a with
    | ⟨0, _⟩ => rfl
    | ⟨1, _⟩ => show e.val = 0 + e.val; omega)

/-- Row 1 of the edge array as a flat vector reads, at `e`, the array at `(1, e)`. -/
theorem row1_apply (x : (⟨2, ![2, R]⟩ : Shape).Idx → α) (hs : (⟨2, ![2, R]⟩ : Shape).Slices ![1, 0] ⟨2, ![1, R]⟩)
    (hc : (⟨2, ![1, R]⟩ : Shape).ShapeCasts ⟨1, ![R]⟩) (e : Fin R) :
    shapeCast ⟨1, ![R]⟩ (extractStridedSlice ⟨2, ![1, R]⟩ ![1, 0] x hs) hc (ix1 e) = x (ix2 (1 : Fin 2) e) := by
  rw [shapeCast_apply _ hc (ix1 e) (ix2 (0 : Fin 1) e) (by
    rw [Shape.rowMajor_val_two, Shape.rowMajor_val_one]
    show 0 * R + e.val = e.val
    omega)]
  exact extractStridedSlice_apply ![1, 0] x hs (ix2 (0 : Fin 1) e) (ix2 (1 : Fin 2) e) (fun a => by
    match a with
    | ⟨0, _⟩ => rfl
    | ⟨1, _⟩ => show e.val = 0 + e.val; omega)

end Cert.Gcn.EdgeRows

end
-- ==== Proof.RefIndex.lean ====
/-
  The reference's index columns are the kernel's.

  The reference wraps every index word before it gathers or scatters with it: a word that reads negative as a signed
  integer is moved up by the node count, any other word is kept. A target word that is non-negative is therefore its
  own wrapped form, so under "every target word is non-negative" the reference's wrapped target column is the raw
  target column the kernel scatters by. The source column is wrapped in both programs, by the same operations.
-/
import proofs.«154383_j78194174591377_2_alg».proof.Proof.Gen.ReferenceIdeal.Read
import proofs.«154383_j78194174591377_2_alg».proof.Proof.Gen.KernelIdeal
import proofs.«154383_j78194174591377_2_alg».proof.Proof.Layers
import proofs.«154383_j78194174591377_2_alg».proof.Proof.EdgeRows
import Idealize.ShloMosaic.Lib.Affine

noncomputable section

namespace Cert.Gcn.Ref

open Idealize.ShloMosaic Idealize.ShloMosaic.ValueIdx Cert.ReferenceIdeal Cert.ReferenceIdeal.Read

/-- The wrap of a non-negative word is the word: the "is negative" bit is not set, so the select keeps its third operand. -/
theorem wrap_of_nonneg (v k : BitVec 32) (hv : 0 ≤ v.toInt) :
    Scalar.select (IntOp.cmpi .slt v 0#32) (IntOp.addi v k) v = v := by
  unfold Scalar.select
  rw [if_neg]
  intro h
  have h' := IntOp.cmpi_slt.1 h
  rw [show (0#32 : BitVec 32).toInt = 0 from by decide] at h'
  omega

/-- The flat target vector at edge `e` is the edge array at `(1, e)`. -/
theorem targetWord (x1 : IVec S2x800000 32) (e : Fin 800000) :
    val_main_v3 (F := Ideal) x1 (ix1 e) = x1 (ix2 (1 : Fin 2) e) :=
  EdgeRows.row1_apply x1 _ _ e

section
variable (x1 : IVec S2x800000 32) (hdst : ∀ e : Fin 800000, 0 ≤ (x1 (ix2 (1 : Fin 2) e)).toInt)
include hdst

/-- Under non-negative targets the wrapped target vector is the raw one. -/
theorem wrappedTarget_eq : val_main_v9 (F := Ideal) x1 = val_main_v3 (F := Ideal) x1 := by
  funext i
  obtain ⟨e, rfl⟩ : ∃ e : Fin 800000, i = ix1 e := ⟨i 0, eq_ix1 i⟩
  show Scalar.select (IntOp.cmpi .slt (val_main_v3 (F := Ideal) x1 (ix1 e)) 0#32)
    (IntOp.addi (val_main_v3 (F := Ideal) x1 (ix1 e)) 50000#32) (val_main_v3 (F := Ideal) x1 (ix1 e)) = _
  exact wrap_of_nonneg _ _ (by rw [targetWord]; exact hdst e)

theorem wrappedTarget_eq' : val_main_v28 (F := Ideal) x1 = val_main_v3 (F := Ideal) x1 := wrappedTarget_eq x1 hdst
theorem wrappedTarget_eq'' : val_main_v66 (F := Ideal) x1 = val_main_v3 (F := Ideal) x1 := wrappedTarget_eq x1 hdst

/-- The three wrapped target columns are the kernel's raw target column. -/
theorem v10_eq : val_main_v10 (F := Ideal) x1 = Cert.Gcn.dstCol x1 := by
  unfold val_main_v10; rw [wrappedTarget_eq x1 hdst]; rfl
theorem v29_eq : val_main_v29 (F := Ideal) x1 = Cert.Gcn.dstCol x1 := by
  unfold val_main_v29; rw [wrappedTarget_eq' x1 hdst]; rfl
theorem v67_eq : val_main_v67 (F := Ideal) x1 = Cert.Gcn.dstCol x1 := by
  unfold val_main_v67; rw [wrappedTarget_eq'' x1 hdst]; rfl

end

variable (x1 : IVec S2x800000 32)

/-- The reference's raw target columns are the kernel's. -/
theorem v43_eq : val_main_v43 (F := Ideal) x1 = Cert.Gcn.dstCol x1 := rfl
theorem v81_eq : val_main_v81 (F := Ideal) x1 = Cert.Gcn.dstCol x1 := rfl

/-- The reference's wrapped source columns are the kernel's. -/
theorem v22_eq : val_main_v22 (F := Ideal) x1 = Cert.Gcn.srcCol x1 := rfl
theorem v38_eq : val_main_v38 (F := Ideal) x1 = Cert.Gcn.srcCol x1 := rfl
theorem v60_eq : val_main_v60 (F := Ideal) x1 = Cert.Gcn.srcCol x1 := rfl
theorem v76_eq : val_main_v76 (F := Ideal) x1 = Cert.Gcn.srcCol x1 := rfl

end Cert.Gcn.Ref

end
-- ==== Proof.RefDegree.lean ====
/-
  The degree factor: the reference's is the kernel's, and it is a non-negative number other than `+∞`.

  A node's degree is counted by scatter-adding a one for every edge into zeros at the edge's target and adding one
  more for the node's own loop, and the factor is the inverse square root of that count. Under "every target word is
  non-negative" the reference's wrapped target column is the kernel's raw one, so the two counts are the same term.
  Whatever edges land on a node, the count is a sum of ones over a finite set plus one, that is the real number
  `card + 1 > 0`; the inverse square root of a positive real is a non-negative real.
-/
import proofs.«154383_j78194174591377_2_alg».proof.Proof.RefIndex
import Idealize.ShloMosaic.PureOps.Ideal.Laws

noncomputable section

open scoped BigOperators

namespace Cert.Gcn.Ref

open Idealize.ShloMosaic Idealize.ShloMosaic.ValueIdx Cert.ReferenceIdeal Cert.ReferenceIdeal.Read

/-- A sum of ones over a finite set is the set's cardinality. -/
theorem sum_one_eq_card {ι : Type} (s : Finset ι) : ∑ _j ∈ s, (1 : EReal) = ((s.card : ℝ) : EReal) := by
  classical
  induction s using Finset.induction_on with
  | empty => simp
  | insert a s ha ih =>
    rw [Finset.sum_insert ha, ih, Finset.card_insert_of_notMem ha, Nat.cast_succ, EReal.coe_add, EReal.coe_one, add_comm]

/-- The inverse square root of "zero plus a one per element of a finite set, plus one" is non-negative and not `+∞`. -/
theorem rsqrt_count {ι : Type} (s : Finset ι) (z o : EReal) (hz : z = 0) (ho : o = 1) :
    0 ≤ Ideal.rsqrt ((z + ∑ _j ∈ s, o) + o) ∧ Ideal.rsqrt ((z + ∑ _j ∈ s, o) + o) ≠ ⊤ := by
  subst hz ho
  have harg : ((0 : EReal) + ∑ _j ∈ s, (1 : EReal)) + 1 = (((s.card : ℝ) + 1 : ℝ) : EReal) := by
    rw [zero_add, sum_one_eq_card, EReal.coe_add, EReal.coe_one]
  have hpos : (0 : ℝ) < (s.card : ℝ) + 1 := by positivity
  rw [harg, Ideal.rsqrt_coe, if_neg (not_lt.2 hpos.le), if_neg hpos.ne']
  exact ⟨EReal.coe_nonneg.2 (inv_nonneg.2 (Real.sqrt_nonneg _)), EReal.coe_ne_top _⟩

/-- The float word of one is the number one. -/
theorem oneWord : Ideal.ofBits .f32 0x3F800000#32 = 1 := IdealRules.sign_bit.ideal_onePat .f32

/-- The inverse square root of a count array plus one: scatter-adding updates that are all one into an array that is zero
    at `i`, and adding an array that is one at `i`, gives at `i` a sum of ones over the updates that land there, plus one. -/
theorem rsqrt_count_arrays {s si su : Shape} (rec : ScatterDims s si su) {w : ℕ} (Z O : FVec Ideal s .f32) (idx : IVec si w)
    (U : FVec Ideal su .f32) (i : s.Idx) (hZ : Z i = 0) (hU : ∀ j, U j = 1) (hO : O i = 1) :
    0 ≤ Host.rsqrt (F := Ideal) (φ := .f32)
        (addf (F := Ideal) (φ := .f32) (Host.scatterAdd (F := Ideal) (φ := .f32) rec Z idx U) O) i
      ∧ Host.rsqrt (F := Ideal) (φ := .f32)
        (addf (F := Ideal) (φ := .f32) (Host.scatterAdd (F := Ideal) (φ := .f32) rec Z idx U) O) i ≠ ⊤ := by
  show 0 ≤ Ideal.rsqrt (Ideal.hostScatterAdd rec Z idx U i + O i) ∧ Ideal.rsqrt (Ideal.hostScatterAdd rec Z idx U i + O i) ≠ ⊤
  unfold Ideal.hostScatterAdd
  rw [hZ, hO, Finset.sum_congr rfl (fun j _ => hU j)]
  exact rsqrt_count _ 0 1 rfl rfl

/-- The kernel's degree factor is non-negative and not `+∞` at every node. -/
theorem degFactor_sign (x1 : IVec S2x800000 32) (i : S50000.Idx) :
    0 ≤ Cert.Gcn.degFactor x1 i ∧ Cert.Gcn.degFactor x1 i ≠ ⊤ := by
  unfold Cert.Gcn.degFactor
  refine rsqrt_count_arrays _ _ _ _ _ i ?_ (fun j => ?_) ?_
  · rw [broadcastInDim_apply _ _ _ i ix0 (fun a => a.elim0), constant_apply]; exact Ideal.ofBits_zero_f32
  · rw [broadcastInDim_apply _ _ _ j ix0 (fun a => a.elim0), constant_apply]; exact oneWord
  · rw [broadcastInDim_apply _ _ _ i ix0 (fun a => a.elim0), constant_apply]; exact oneWord

/-- Under non-negative targets the reference's degree factor is the kernel's. -/
theorem v15_eq (x1 : IVec S2x800000 32) (hdst : ∀ e : Fin 800000, 0 ≤ (x1 (ix2 (1 : Fin 2) e)).toInt) :
    val_main_v15 (F := Ideal) x1 = Cert.Gcn.degFactor x1 := by
  unfold val_main_v15 val_main_v14 val_main_v12
  rw [v10_eq x1 hdst]
  rfl

end Cert.Gcn.Ref

end
-- ==== Proof.LibRowScatterAdd.lean ====
/-
  A row scatter-add read at an index, at the ideal instance. What `x.at[idx].add(upd)` of an array `x : [N, A]` at a
  vector of `R` row numbers and updates `upd : [R, A]` lowers to: a scatter with an `add` body, the row numbers as an
  `[R, 1]` column, the row axis inserted, the column axis a window axis of full extent. Update row `e` lands on operand
  row `idx[e, 0]` — read as a signed integer and NOT clamped — when that is a row of the operand, and is dropped
  otherwise; the column is kept. So result element `(n, a)` is `x (n, a)` plus the sum of `upd (e, a)` over the update
  rows `e` whose row number is `n`.
-/
import Idealize.ShloMosaic.Lib.ValueIdx

noncomputable section

open scoped BigOperators

namespace Idealize.ShloMosaic.RowScatterAdd

open Idealize.ShloMosaic Idealize.ShloMosaic.ValueIdx

/-- The dimension numbers of a row scatter into `[N, A]` by an `[R, 1]` column of row numbers with updates `[R, A]`. -/
abbrev dims2 (N A R : Nat) (wf : ScatterDims.WF ⟨2, ![N, A]⟩ ⟨2, ![R, 1]⟩ ⟨2, ![R, A]⟩ [1] [0] [0] 1) :
    ScatterDims ⟨2, ![N, A]⟩ ⟨2, ![R, 1]⟩ ⟨2, ![R, A]⟩ where
  updateWindowDims := [1]
  insertedWindowDims := [0]
  scatterDimsToOperandDims := [0]
  indexVectorDim := 1
  wf := wf

section
variable {N A R w : Nat} (wf : ScatterDims.WF ⟨2, ![N, A]⟩ ⟨2, ![R, 1]⟩ ⟨2, ![R, A]⟩ [1] [0] [0] 1)
  (idx : IVec ⟨2, ![R, 1]⟩ w) (e : Fin R) (a' : Fin A)

/-- On the row axis the window starts at the row number `idx[e, 0]`, read signed: the row axis is the one axis the
    scatter-dims-to-operand-dims map names, and update index `(e, a')` reads its start index at `[e, 0]`. -/
theorem start_row : (dims2 N A R wf).start (ix2 e a') idx (⟨0, by decide⟩ : Fin 2) = (idx (ix2 e (0 : Fin 1))).toInt := by
  unfold ScatterDims.start
  rw [dif_pos (show (⟨0, _⟩ : Fin 2) ∈ (dims2 N A R wf).scatterDimsToOperandDims from List.mem_singleton.mpr rfl)]
  have hsi : (dims2 N A R wf).siIdx (ix2 e a') ⟨List.idxOf (⟨0, by decide⟩ : Fin 2) (dims2 N A R wf).scatterDimsToOperandDims,
      List.idxOf_lt_length_iff.2 (List.mem_singleton.mpr rfl)⟩ = ix2 e (0 : Fin 1) := by
    funext d; refine Fin.ext ?_
    match d with
    | ⟨0, _⟩ => rfl
    | ⟨1, _⟩ => rfl
  rw [hsi]

/-- On the column axis the window starts at `0`: the map does not name that axis. -/
theorem start_col : (dims2 N A R wf).start (ix2 e a') idx (⟨1, by decide⟩ : Fin 2) = 0 := by
  unfold ScatterDims.start
  rw [dif_neg (show ¬ (⟨1, _⟩ : Fin 2) ∈ (dims2 N A R wf).scatterDimsToOperandDims by
    show ¬ (⟨1, _⟩ : Fin 2) ∈ [(0 : Fin 2)]
    simp [Fin.ext_iff])]

/-- The row axis is inserted: its window coordinate is `0`. -/
theorem window_row : (dims2 N A R wf).window (ix2 e a') (⟨0, by decide⟩ : Fin 2) = 0 := by
  unfold ScatterDims.window
  rw [dif_neg (show ¬ (⟨0, _⟩ : Fin 2) ∈ (dims2 N A R wf).sKept from fun h =>
    of_decide_eq_true (List.mem_filter.mp h).2 (List.mem_singleton.mpr rfl))]

/-- The column axis is the one window axis: its window coordinate is the update's column. -/
theorem window_col : (dims2 N A R wf).window (ix2 e a') (⟨1, by decide⟩ : Fin 2) = a'.val := by
  unfold ScatterDims.window
  rw [dif_pos (show (⟨1, _⟩ : Fin 2) ∈ (dims2 N A R wf).sKept from
    List.mem_filter.mpr ⟨List.mem_finRange _, decide_eq_true (by
      show ¬ (⟨1, _⟩ : Fin 2) ∈ [(0 : Fin 2)]
      simp [Fin.ext_iff])⟩)]
  rfl

/-- WHERE AN UPDATE LANDS: update element `(e, a')` lands on operand element `(n, a)` exactly when its row number,
    read signed, is `n` and its column is `a`. The landing index is start plus window coordinate on each axis — the row
    number on the row axis, `a'` on the column axis — and exists when both are in range; the column always is. -/
theorem resultIdx_eq_some_iff (n : Fin N) (a : Fin A) :
    (dims2 N A R wf).resultIdx? (ix2 e a') idx = some (ix2 n a)
      ↔ (idx (ix2 e (0 : Fin 1))).toInt = (n.val : ℤ) ∧ a' = a := by
  have h0 : (dims2 N A R wf).start (ix2 e a') idx (⟨0, by decide⟩ : Fin 2) + (dims2 N A R wf).window (ix2 e a') (⟨0, by decide⟩ : Fin 2)
      = (idx (ix2 e (0 : Fin 1))).toInt := by
    rw [start_row, window_row]; simp
  have h1 : (dims2 N A R wf).start (ix2 e a') idx (⟨1, by decide⟩ : Fin 2) + (dims2 N A R wf).window (ix2 e a') (⟨1, by decide⟩ : Fin 2)
      = (a'.val : ℤ) := by
    rw [start_col, window_col]; simp
  have hn : n.val < N := n.isLt
  have ha' : a'.val < A := a'.isLt
  unfold ScatterDims.resultIdx?
  split
  · rename_i h
    constructor
    · intro hs
      have hf := Option.some.inj hs
      have e0 : ((dims2 N A R wf).start (ix2 e a') idx (⟨0, by decide⟩ : Fin 2)
          + (dims2 N A R wf).window (ix2 e a') (⟨0, by decide⟩ : Fin 2)).toNat = n.val :=
        congrArg (fun f : (⟨2, ![N, A]⟩ : Shape).Idx => (f (⟨0, by decide⟩ : Fin 2)).val) hf
      have e1 : ((dims2 N A R wf).start (ix2 e a') idx (⟨1, by decide⟩ : Fin 2)
          + (dims2 N A R wf).window (ix2 e a') (⟨1, by decide⟩ : Fin 2)).toNat = a.val :=
        congrArg (fun f : (⟨2, ![N, A]⟩ : Shape).Idx => (f (⟨1, by decide⟩ : Fin 2)).val) hf
      have hpos := (h (⟨0, by decide⟩ : Fin 2)).1
      rw [h0] at e0 hpos
      rw [h1] at e1
      refine ⟨by omega, Fin.ext (by omega)⟩
    · rintro ⟨hv, rfl⟩
      refine congrArg some ?_
      funext d; refine Fin.ext ?_
      match d with
      | ⟨0, _⟩ =>
        show ((dims2 N A R wf).start (ix2 e a') idx (⟨0, by decide⟩ : Fin 2)
          + (dims2 N A R wf).window (ix2 e a') (⟨0, by decide⟩ : Fin 2)).toNat = n.val
        rw [h0, hv]; simp
      | ⟨1, _⟩ =>
        show ((dims2 N A R wf).start (ix2 e a') idx (⟨1, by decide⟩ : Fin 2)
          + (dims2 N A R wf).window (ix2 e a') (⟨1, by decide⟩ : Fin 2)).toNat = a'.val
        rw [h1]; simp
  · rename_i h
    constructor
    · intro hs; exact absurd hs (by simp)
    · rintro ⟨hv, rfl⟩
      refine absurd (fun d => ?_) h
      match d with
      | ⟨0, _⟩ =>
        show 0 ≤ (dims2 N A R wf).start (ix2 e a') idx (⟨0, by decide⟩ : Fin 2) + (dims2 N A R wf).window (ix2 e a') (⟨0, by decide⟩ : Fin 2)
          ∧ (dims2 N A R wf).start (ix2 e a') idx (⟨0, by decide⟩ : Fin 2) + (dims2 N A R wf).window (ix2 e a') (⟨0, by decide⟩ : Fin 2) < (N : ℤ)
        rw [h0, hv]; omega
      | ⟨1, _⟩ =>
        show 0 ≤ (dims2 N A R wf).start (ix2 e a') idx (⟨1, by decide⟩ : Fin 2) + (dims2 N A R wf).window (ix2 e a') (⟨1, by decide⟩ : Fin 2)
          ∧ (dims2 N A R wf).start (ix2 e a') idx (⟨1, by decide⟩ : Fin 2) + (dims2 N A R wf).window (ix2 e a') (⟨1, by decide⟩ : Fin 2) < (A : ℤ)
        rw [h1]; omega

end

/-- THE READ of a row scatter-add at `(n, a)`, at the ideal instance: the operand element plus the updates `upd (e, a)`
    of the rows `e` whose row number, read signed, is `n`. The sum over the update elements that land on `(n, a)` is a
    double sum over `(e, a')`; by the landing condition the inner sum keeps the one column `a' = a`. -/
theorem scatterAdd2_apply {N A R w : Nat} (wf : ScatterDims.WF ⟨2, ![N, A]⟩ ⟨2, ![R, 1]⟩ ⟨2, ![R, A]⟩ [1] [0] [0] 1)
    (x : (⟨2, ![N, A]⟩ : Shape).Idx → EReal) (idx : IVec ⟨2, ![R, 1]⟩ w) (upd : (⟨2, ![R, A]⟩ : Shape).Idx → EReal)
    (n : Fin N) (a : Fin A) :
    Ideal.hostScatterAdd (dims2 N A R wf) x idx upd (ix2 n a)
      = x (ix2 n a) + ∑ e : Fin R, if (idx (ix2 e (0 : Fin 1))).toInt = (n.val : ℤ) then upd (ix2 e a) else 0 := by
  unfold Ideal.hostScatterAdd
  refine congrArg (fun t => x (ix2 n a) + t) ?_
  rw [Finset.sum_filter, sum_idx2]
  refine Finset.sum_congr rfl fun e _ => ?_
  simp only [resultIdx_eq_some_iff]
  by_cases hv : (idx (ix2 e (0 : Fin 1))).toInt = (n.val : ℤ)
  · simp only [hv, true_and, if_true]
    rw [Finset.sum_eq_single a]
    · simp
    · intro b _ hb; simp [hb]
    · intro h; exact absurd (Finset.mem_univ a) h
  · simp only [hv, false_and, if_false]
    exact Finset.sum_const_zero

/-- The same read for the host's `scatter` with an `add` body, whose ideal instance is that exact sum. -/
theorem host_scatterAdd2_apply {φ : FTy} {N A R w : Nat} (wf : ScatterDims.WF ⟨2, ![N, A]⟩ ⟨2, ![R, 1]⟩ ⟨2, ![R, A]⟩ [1] [0] [0] 1)
    (x : (⟨2, ![N, A]⟩ : Shape).Idx → EReal) (idx : IVec ⟨2, ![R, 1]⟩ w) (upd : (⟨2, ![R, A]⟩ : Shape).Idx → EReal)
    (n : Fin N) (a : Fin A) :
    Host.scatterAdd (F := Ideal) (φ := φ) (dims2 N A R wf) x idx upd (ix2 n a)
      = x (ix2 n a) + ∑ e : Fin R, if (idx (ix2 e (0 : Fin 1))).toInt = (n.val : ℤ) then upd (ix2 e a) else 0 :=
  scatterAdd2_apply wf x idx upd n a

end Idealize.ShloMosaic.RowScatterAdd

end
-- ==== Proof.LibRowGather.lean ====
/-
  A row gather read at an index. What `x[idx]` of an array `x : [N, A, B]` (or `[N, A]`) at a vector of `R` row
  numbers lowers to: a gather with the row numbers as an `[R, 1]` column, the row axis collapsed, the other axes
  offset axes of full extent. Result element `(r, a, b)` is `x` at row `idx[r, 0]` — read as a signed integer and
  clamped into `[0, N - 1]`, as the gather clamps every start index — and at `(a, b)` inside the row.
-/
import Idealize.ShloMosaic.Lib.ValueIdx

noncomputable section

namespace Idealize.ShloMosaic.RowGather

open Idealize.ShloMosaic Idealize.ShloMosaic.ValueIdx

variable {α : Type}

/-- The dimension numbers of a row gather from `[N, A, B]` by an `[R, 1]` column into `[R, A, B]`. -/
abbrev dims3 (N A B R : Nat)
    (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- The dimension numbers of a row gather from `[N, A]` by an `[R, 1]` column into `[R, A]`. -/
abbrev dims2 (N A R : Nat)
    (wf : GatherDims.WF ⟨2, ![N, A]⟩ ⟨2, ![R, 1]⟩ ⟨2, ![R, A]⟩ [1] [0] [] [0] [] 1 ![1, A]) :
    GatherDims ⟨2, ![N, A]⟩ ⟨2, ![R, 1]⟩ ⟨2, ![R, A]⟩ where
  offsetDims := [1]
  collapsedSliceDims := [0]
  operandBatchingDims := []
  startIndicesBatchingDims := []
  startIndexMap := [0]
  indexVectorDim := 1
  sliceSizes := ![1, A]
  wf := wf

/-- The row a start index selects: its signed value clamped into `[0, N - 1]`. -/
def rowOf (N : Nat) (hN : 0 < N) {w : Nat} (v : BitVec w) : Fin N := ⟨min v.toInt.toNat (N - 1), by omega⟩

/-- THE READ of a rank-3 row gather at `(r, a, b)`. -/
theorem gather3_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (r : Fin R) (a : Fin A) (b : Fin B) :
    Host.gather (dims3 N A B R wf) x idx (ix3 r a b) = x (ix3 (rowOf N hN (idx (ix2 r (0 : Fin 1)))) a b) := by
  unfold Host.gather
  refine congrArg x ?_
  funext ax
  refine Fin.ext ?_
  show (dims3 N A B R wf).start (ix3 r a b) idx ax + (dims3 N A B R wf).batchCoord (ix3 r a b) ax + (dims3 N A B R wf).offCoord (ix3 r a b) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 3) ∈ (dims3 N A B R wf).startIndexMap from List.mem_singleton.mpr rfl)]
    have hsi : (dims3 N A B R wf).siIdx (ix3 r a b) ⟨List.idxOf (⟨0, by decide⟩ : Fin 3) (dims3 N A B R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 3) ∈ (dims3 N A B R wf).startIndexMap by
      show ¬ (⟨1, _⟩ : Fin 3) ∈ [(0 : Fin 3)]
      simp [Fin.ext_iff])]
    unfold GatherDims.offCoord
    rw [dif_pos (show (⟨1, _⟩ : Fin 3) ∈ (dims3 N A B R wf).sKept from
      (GatherDims.mem_sKept _ _).mpr ⟨by show ¬ (⟨1, _⟩ : Fin 3) ∈ [(0 : Fin 3)]; simp [Fin.ext_iff], List.not_mem_nil⟩)]
    simp only [Nat.zero_add]
    rfl
  | ⟨2, _⟩ =>
    unfold GatherDims.start
    rw [dif_neg (show ¬ (⟨2, _⟩ : Fin 3) ∈ (dims3 N A B R wf).startIndexMap by
      show ¬ (⟨2, _⟩ : Fin 3) ∈ [(0 : Fin 3)]
      simp [Fin.ext_iff])]
    unfold GatherDims.offCoord
    rw [dif_pos (show (⟨2, _⟩ : Fin 3) ∈ (dims3 N A B R wf).sKept from
      (GatherDims.mem_sKept _ _).mpr ⟨by show ¬ (⟨2, _⟩ : Fin 3) ∈ [(0 : Fin 3)]; simp [Fin.ext_iff], List.not_mem_nil⟩)]
    simp only [Nat.zero_add]
    rfl

/-- THE READ of a rank-2 row gather at `(r, a)`. -/
theorem gather2_apply {N A R w : Nat} (hN : 0 < N)
    (wf : GatherDims.WF ⟨2, ![N, A]⟩ ⟨2, ![R, 1]⟩ ⟨2, ![R, A]⟩ [1] [0] [] [0] [] 1 ![1, A])
    (x : (⟨2, ![N, A]⟩ : Shape).Idx → α) (idx : IVec ⟨2, ![R, 1]⟩ w) (r : Fin R) (a : Fin A) :
    Host.gather (dims2 N A R wf) x idx (ix2 r a) = x (ix2 (rowOf N hN (idx (ix2 r (0 : Fin 1)))) a) := by
  unfold Host.gather
  refine congrArg x ?_
  funext ax
  refine Fin.ext ?_
  show (dims2 N A R wf).start (ix2 r a) idx ax + (dims2 N A R wf).batchCoord (ix2 r a) ax + (dims2 N A R wf).offCoord (ix2 r a) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 2) ∈ (dims2 N A R wf).startIndexMap from List.mem_singleton.mpr rfl)]
    have hsi : (dims2 N A R wf).siIdx (ix2 r a) ⟨List.idxOf (⟨0, by decide⟩ : Fin 2) (dims2 N A R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl
  | ⟨1, _⟩ =>
    unfold GatherDims.start
    rw [dif_neg (show ¬ (⟨1, _⟩ : Fin 2) ∈ (dims2 N A R wf).startIndexMap by
      show ¬ (⟨1, _⟩ : Fin 2) ∈ [(0 : Fin 2)]
      simp [Fin.ext_iff])]
    unfold GatherDims.offCoord
    rw [dif_pos (show (⟨1, _⟩ : Fin 2) ∈ (dims2 N A R wf).sKept from
      (GatherDims.mem_sKept _ _).mpr ⟨by show ¬ (⟨1, _⟩ : Fin 2) ∈ [(0 : Fin 2)]; simp [Fin.ext_iff], List.not_mem_nil⟩)]
    simp only [Nat.zero_add]
    rfl

end Idealize.ShloMosaic.RowGather

end
-- ==== Proof.LibTake1.lean ====
/-
  A flat gather read at an index. What `x[idx]` of a flat array `x : [N]` at a vector of `R` positions lowers to: a
  gather with the positions as an `[R, 1]` column, the one operand axis collapsed, no offset axes. Result element `r`
  is `x` at position `idx[r, 0]` — read as a signed integer and clamped into `[0, N - 1]`, as the gather clamps every
  start index. With it, two facts about positions that are small natural numbers written as 32-bit words: such a word
  reads back, signed, as the number, and the position it selects is the number itself.
-/
import proofs.«154383_j78194174591377_2_alg».proof.Proof.LibRowGather

noncomputable section

namespace Idealize.ShloMosaic.RowGather

open Idealize.ShloMosaic Idealize.ShloMosaic.ValueIdx

/-- The dimension numbers of a gather from a flat `[N]` by an `[R, 1]` column into `[R]`. -/
abbrev dims1 (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE READ of a flat gather at `r`: the operand at the position `idx[r, 0]`, read signed and clamped into
    `[0, N - 1]`. The one operand axis is in the start index map and collapsed, so the operand coordinate is the clamped
    start alone; the start index is read at `[r, 0]` because the result's one axis is a batch axis reading the start
    indices' axis 0 and the index vector's axis 1 has extent 1. -/
theorem gather1_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (dims1 N R wf) x idx (ix1 r) = x (ix1 (rowOf N hN (idx (ix2 r (0 : Fin 1))))) := by
  unfold Host.gather
  refine congrArg x ?_
  funext ax
  refine Fin.ext ?_
  show (dims1 N R wf).start (ix1 r) idx ax + (dims1 N R wf).batchCoord (ix1 r) ax + (dims1 N R wf).offCoord (ix1 r) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, _⟩ : Fin 1) ∈ (dims1 N R wf).startIndexMap from List.mem_singleton.mpr rfl)]
    have hsi : (dims1 N R wf).siIdx (ix1 r) ⟨List.idxOf (⟨0, by decide⟩ : Fin 1) (dims1 N R wf).startIndexMap,
        List.idxOf_lt_length_iff.2 (List.mem_singleton.mpr rfl)⟩ = ix2 r (0 : Fin 1) := by
      funext d; refine Fin.ext ?_
      match d with
      | ⟨0, _⟩ => rfl
      | ⟨1, _⟩ => rfl
    rw [hsi]
    rfl

/-- A natural number below `2 ^ 31`, written as a 32-bit word, reads back signed as itself: it is below `2 ^ 32`, so
    the word's unsigned value is the number, and its top bit is clear, so the signed value is the unsigned one. -/
theorem toInt_ofNat32 {k : Nat} (h : k < 2 ^ 31) : (BitVec.ofNat 32 k).toInt = (k : ℤ) := by
  rw [BitVec.toInt_eq_toNat_of_lt (by rw [BitVec.toNat_ofNat]; omega), BitVec.toNat_ofNat]
  have hk : k % 2 ^ 32 = k := Nat.mod_eq_of_lt (by omega)
  rw [hk]

/-- The position a 32-bit word `k` selects in `[0, N - 1]`, for `k` below `N` and `N` at most `2 ^ 31`, is `k`: the
    word reads signed as `k`, and `k ≤ N - 1` so the clamp does nothing. -/
theorem rowOf_ofNat {N : Nat} (hN : 0 < N) (k : Fin N) (h31 : N ≤ 2 ^ 31) : rowOf N hN (BitVec.ofNat 32 k.val) = k := by
  refine Fin.ext ?_
  have hk : k.val < 2 ^ 31 := lt_of_lt_of_le k.isLt h31
  show min (BitVec.ofNat 32 k.val).toInt.toNat (N - 1) = k.val
  rw [toInt_ofNat32 hk, Int.toNat_natCast]
  have := k.isLt
  omega

end Idealize.ShloMosaic.RowGather

end
-- ==== Proof.LibRegionBlockSpread.lean ====
/-
  Keep-dimension columns and rows spread by the host over a matrix, read at an index.

  After a reduction along the rows of an `[a, b]` array the host keeps the result as an `[a, 1]` column and spreads it
  back over the `b` columns, both with `broadcast_in_dim`; a bias is an `[1, b]` row spread over the `a` rows.  Read at
  `(p, q)`, each of these is the value of the row `p`, or of the column `q`, alone:

    * an `[a]` array spread in dimension 0 to an `[a, 1]` column reads at `(p, z)` the array at `p`;
    * an `[a, 1]` column spread in dimensions (0, 1) over `[a, b]` reads at `(p, q)` the column at `(p, 0)`;
    * a `[1, b]` row spread in dimensions (0, 1) over `[a, b]` reads at `(p, q)` the row at `(0, q)`.

  The square root, which a kernel and the host apply entry by entry, is read at an index by definition.
-/
import Idealize.ShloMosaic.PureOps.Ideal
import Idealize.ShloMosaic.Lib.ValueIdx
import Idealize.ShloMosaic.Lib.Pipeline.Value

noncomputable section

namespace Idealize.ShloMosaic.KeepDims

open Idealize.ShloMosaic Idealize.ShloMosaic.ValueIdx

/-! ## The square root at an index -/

section Pointwise
variable {s : Shape} {φ : FTy}

/-- A kernel's square root at an index is the square root of the entry. -/
theorem sqrt_apply (a : FVec Ideal s φ) (i : s.Idx) : sqrt a i = Ideal.sqrt (a i) := rfl
/-- The host's square root at an index is the same function of the entry. -/
theorem hostSqrt_apply (a : FVec Ideal s φ) (i : s.Idx) : Host.sqrt a i = Ideal.sqrt (a i) := rfl

end Pointwise

/-! ## Columns and rows spread over a matrix -/

section Layout
variable {α : Type}

/-- An `[a]` array spread in dimension 0 to an `[a, 1]` column reads, at `(p, z)`, the array at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (z : Fin 1) :
    broadcastInDim ⟨2, ![a, 1]⟩ ![0] h x (ix2 p z) = x (ix1 p) :=
  broadcastInDim_apply ![0] h x (ix2 p z) (ix1 p) fun ax => by
    match ax with
    | ⟨0, _⟩ =>
      show p.val = if a = 1 then 0 else p.val
      split
      · have := p.isLt; omega
      · rfl

/-- An `[a, 1]` column spread in dimensions (0, 1) over `[a, b]` reads, at `(p, q)`, the column at `(p, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) :=
  broadcastInDim_apply ![0, 1] h x (ix2 p q) (ix2 p (0 : Fin 1)) fun ax => by
    match ax with
    | ⟨0, _⟩ =>
      show p.val = if a = 1 then 0 else p.val
      split
      · have := p.isLt; omega
      · rfl
    | ⟨1, _⟩ => rfl

/-- A `[1, b]` row spread in dimensions (0, 1) over `[a, b]` reads, at `(p, q)`, the row at `(0, q)`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) :=
  broadcastInDim_apply ![0, 1] h x (ix2 p q) (ix2 (0 : Fin 1) q) fun ax => by
    match ax with
    | ⟨0, _⟩ => rfl
    | ⟨1, _⟩ =>
      show q.val = if b = 1 then 0 else q.val
      split
      · have := q.isLt; omega
      · rfl

end Layout

end Idealize.ShloMosaic.KeepDims

end
-- ==== Proof.LibGcnLayerLaw.lean ====
/-
  The one law that joins the two arrangements of a normalised neighbour sum, on the extended reals.

  One arrangement scales every source row by its own degree factor first, sums the rows of the edges ending at a node
  together with the node's own scaled row, and multiplies the total by the node's factor `c`. The other multiplies each
  edge's row by the product of both factors before summing and adds the node's own row times `c · c`. They agree because
  a factor that is non-negative and not `+∞` distributes over sums of extended reals (for such a factor no product
  `c · ⊤` and `c · ⊥` of opposite signs can be created or destroyed), and the rest is commutativity and associativity
  of the product.
-/
import Mathlib.Data.EReal.Operations
import Mathlib.Data.EReal.Inv
import Mathlib.Algebra.BigOperators.Group.Finset.Basic
import Mathlib.Algebra.BigOperators.Fin

namespace Cert.Gcn.Algebra

/-- A non-negative factor other than `+∞` distributes over a finite sum of extended reals. -/
theorem mul_sum {ι : Type} (s : Finset ι) (c : EReal) (h0 : 0 ≤ c) (ht : c ≠ ⊤) (g : ι → EReal) :
    c * ∑ e ∈ s, g e = ∑ e ∈ s, c * g e := by
  classical
  induction s using Finset.induction_on with
  | empty => simp
  | insert a s ha ih =>
    rw [Finset.sum_insert ha, Finset.sum_insert ha, EReal.left_distrib_of_nonneg_of_ne_top h0 ht, ih]

/-- THE LAYER IDENTITY at one entry. `P e` says edge `e` ends at the node; `u e` is the source row's entry, `ds e` the
    source's factor, `dd e` the target's factor (which is `c` on the edges that end here), `t` the node's own entry. -/
theorem layer_entry {E : ℕ} (c z : EReal) (h0 : 0 ≤ c) (ht : c ≠ ⊤) (hz : z = 0) (P : Fin E → Prop) [DecidablePred P]
    (u ds dd : Fin E → EReal) (hdd : ∀ e, P e → dd e = c) (t b : EReal) :
    c * ((z + ∑ e : Fin E, if P e then u e * ds e else 0) + t * c) + b
      = ((z + ∑ e : Fin E, if P e then (ds e * dd e) * u e else 0) + (c * c) * t) + b := by
  subst hz
  rw [zero_add, zero_add, EReal.left_distrib_of_nonneg_of_ne_top h0 ht, mul_sum _ c h0 ht]
  have hs : ∑ e : Fin E, c * (if P e then u e * ds e else 0) = ∑ e : Fin E, if P e then (ds e * dd e) * u e else 0 := by
    refine Finset.sum_congr rfl fun e _ => ?_
    by_cases h : P e
    · rw [if_pos h, if_pos h, hdd e h, mul_comm (u e) (ds e), ← mul_assoc, mul_comm c (ds e)]
    · rw [if_neg h, if_neg h, mul_zero]
  have ht' : c * (t * c) = c * c * t := by rw [mul_comm t c, mul_assoc]
  rw [hs, ht']

end Cert.Gcn.Algebra
-- ==== Proof.LibGcnArrange.lean ====
/-
  The two arrangements of a normalised graph layer, as whole-array operations, agree entry by entry.

  Fix a node count `N`, an edge count `E`, a feature width `A`, a vector `d : [N]` of degree factors, index columns
  `src, dst : [E, 1]` and a feature array `xw : [N, A]`.

  * One arrangement gathers `d` at the sources and at the targets, multiplies the two into a per-edge weight, spreads
    it over the `A` columns, multiplies it into the gathered source rows of `xw`, scatter-adds the weighted rows into
    `z` at the targets, and adds `(d · d)` spread over the columns times `xw`.
  * The other scales row `n` of `xw` by `d n` first, gathers the scaled source rows, scatter-adds them into `z` at the
    targets, adds the node's own scaled row and multiplies the total by `d n`.

  Read at `(n, f)`, both scatters are `z (n, f)` plus a sum over the edges whose target word reads `n`; both gathers
  read the row a word selects. For an edge whose target word reads `n` the row the word selects is `n`, so its target
  factor is `d n`. The layer identity on the extended reals then joins the two sums, given that `d n` is non-negative
  and not `+∞` and that `z (n, f)` is zero.
-/
import proofs.«154383_j78194174591377_2_alg».proof.Proof.LibRowScatterAdd
import proofs.«154383_j78194174591377_2_alg».proof.Proof.LibRowGather
import proofs.«154383_j78194174591377_2_alg».proof.Proof.LibTake1
import proofs.«154383_j78194174591377_2_alg».proof.Proof.LibRegionBlockSpread
import proofs.«154383_j78194174591377_2_alg».proof.Proof.LibGcnLayerLaw
import Idealize.ShloMosaic.Lib.ValueIdx
import Idealize.ShloMosaic.PureOps.Ideal

noncomputable section

open scoped BigOperators

namespace Cert.Gcn.Arrange

open Idealize.ShloMosaic Idealize.ShloMosaic.ValueIdx

/-- A word that reads, signed, as a row number selects that row: the clamp into `[0, N - 1]` does nothing. -/
theorem rowOf_of_toInt {N : ℕ} (hN : 0 < N) {w : ℕ} (v : BitVec w) (n : Fin N) (h : v.toInt = (n.val : ℤ)) :
    RowGather.rowOf N hN v = n := by
  refine Fin.ext ?_
  show min v.toInt.toNat (N - 1) = n.val
  rw [h, Int.toNat_natCast]
  have := n.isLt
  omega

section
variable {N E A : ℕ} (hN : 0 < N)
  (wfS : ScatterDims.WF ⟨2, ![N, A]⟩ ⟨2, ![E, 1]⟩ ⟨2, ![E, A]⟩ [1] [0] [0] 1)
  (wfG : GatherDims.WF ⟨2, ![N, A]⟩ ⟨2, ![E, 1]⟩ ⟨2, ![E, A]⟩ [1] [0] [] [0] [] 1 ![1, A])
  (wfG1 : GatherDims.WF ⟨1, ![N]⟩ ⟨2, ![E, 1]⟩ ⟨1, ![E]⟩ [] [0] [] [0] [] 1 ![1])
  (hbE : (⟨1, ![E]⟩ : Shape).BroadcastsInDim ⟨2, ![E, 1]⟩ ![0])
  (hbEA : (⟨2, ![E, 1]⟩ : Shape).BroadcastsInDim ⟨2, ![E, A]⟩ ![0, 1])
  (hbN : (⟨1, ![N]⟩ : Shape).BroadcastsInDim ⟨2, ![N, 1]⟩ ![0])
  (hbNA : (⟨2, ![N, 1]⟩ : Shape).BroadcastsInDim ⟨2, ![N, A]⟩ ![0, 1])
  (z : FVec Ideal ⟨2, ![N, A]⟩ .f32) (d : FVec Ideal ⟨1, ![N]⟩ .f32)
  (dst src : IVec ⟨2, ![E, 1]⟩ 32) (xw : FVec Ideal ⟨2, ![N, A]⟩ .f32) (n : Fin N) (f : Fin A)

/-- The neighbour sum of gathered rows `y` at `(n, f)`: `z (n, f)` plus, over the edges whose target word reads `n`,
    the entry `f` of the row of `y` the source word selects. -/
theorem neighbourSum_apply (y : FVec Ideal ⟨2, ![N, A]⟩ .f32) :
    Host.scatterAdd (F := Ideal) (φ := .f32) (RowScatterAdd.dims2 N A E wfS) z dst
        (Host.gather (RowGather.dims2 N A E wfG) y src) (ix2 n f)
      = z (ix2 n f) + ∑ e : Fin E, if (dst (ix2 e (0 : Fin 1))).toInt = (n.val : ℤ)
          then y (ix2 (RowGather.rowOf N hN (src (ix2 e (0 : Fin 1)))) f) else 0 := by
  rw [RowScatterAdd.host_scatterAdd2_apply]
  refine congrArg (fun t => z (ix2 n f) + t) (Finset.sum_congr rfl fun e _ => ?_)
  rw [RowGather.gather2_apply hN]

/-- The weighted neighbour sum at `(n, f)`: each landing edge contributes the product of the two gathered factors times
    the entry `f` of the source row. The target factor is gathered by its own column `dstw`. -/
theorem weightedSum_apply (dstw : IVec ⟨2, ![E, 1]⟩ 32) :
    Host.scatterAdd (F := Ideal) (φ := .f32) (RowScatterAdd.dims2 N A E wfS) z dst
        (mulf (F := Ideal) (φ := .f32)
          (broadcastInDim ⟨2, ![E, A]⟩ ![0, 1] hbEA (broadcastInDim ⟨2, ![E, 1]⟩ ![0] hbE
            (mulf (F := Ideal) (φ := .f32) (Host.gather (RowGather.dims1 N E wfG1) d src)
              (Host.gather (RowGather.dims1 N E wfG1) d dstw))))
          (Host.gather (RowGather.dims2 N A E wfG) xw src)) (ix2 n f)
      = z (ix2 n f) + ∑ e : Fin E, if (dst (ix2 e (0 : Fin 1))).toInt = (n.val : ℤ)
          then (d (ix1 (RowGather.rowOf N hN (src (ix2 e (0 : Fin 1)))))
              * d (ix1 (RowGather.rowOf N hN (dstw (ix2 e (0 : Fin 1))))))
            * xw (ix2 (RowGather.rowOf N hN (src (ix2 e (0 : Fin 1)))) f) else 0 := by
  rw [RowScatterAdd.host_scatterAdd2_apply]
  refine congrArg (fun t => z (ix2 n f) + t) (Finset.sum_congr rfl fun e _ => ?_)
  rw [mulf_apply, KeepDims.broadcastInDim_a1_ab_apply, KeepDims.broadcastInDim_a_a1_apply, mulf_apply,
    RowGather.gather1_apply hN, RowGather.gather1_apply hN, RowGather.gather2_apply hN]

/-- The self-loop term at `(n, f)`: `(d n · d n) · xw (n, f)`. -/
theorem selfTerm_apply :
    mulf (F := Ideal) (φ := .f32)
        (broadcastInDim ⟨2, ![N, A]⟩ ![0, 1] hbNA (broadcastInDim ⟨2, ![N, 1]⟩ ![0] hbN (mulf (F := Ideal) (φ := .f32) d d)))
        xw (ix2 n f)
      = (d (ix1 n) * d (ix1 n)) * xw (ix2 n f) := by
  rw [mulf_apply, KeepDims.broadcastInDim_a1_ab_apply, KeepDims.broadcastInDim_a_a1_apply, mulf_apply]

include hN in
/-- THE TWO ARRANGEMENTS AGREE at `(n, f)`, whatever bias `b` is added last: the weighted sum plus the self-loop term is
    `d n` times (the neighbour sum of the scaled rows plus the node's own scaled row). -/
theorem arrange (hd : ∀ i, 0 ≤ d i ∧ d i ≠ ⊤) (hz : z (ix2 n f) = 0) (b : EReal) :
    addf (F := Ideal) (φ := .f32)
        (Host.scatterAdd (F := Ideal) (φ := .f32) (RowScatterAdd.dims2 N A E wfS) z dst
          (mulf (F := Ideal) (φ := .f32)
            (broadcastInDim ⟨2, ![E, A]⟩ ![0, 1] hbEA (broadcastInDim ⟨2, ![E, 1]⟩ ![0] hbE
              (mulf (F := Ideal) (φ := .f32) (Host.gather (RowGather.dims1 N E wfG1) d src)
                (Host.gather (RowGather.dims1 N E wfG1) d dst))))
            (Host.gather (RowGather.dims2 N A E wfG) xw src)))
        (mulf (F := Ideal) (φ := .f32)
          (broadcastInDim ⟨2, ![N, A]⟩ ![0, 1] hbNA (broadcastInDim ⟨2, ![N, 1]⟩ ![0] hbN (mulf (F := Ideal) (φ := .f32) d d)))
          xw) (ix2 n f) + b
      = d (ix1 n) * (Host.scatterAdd (F := Ideal) (φ := .f32) (RowScatterAdd.dims2 N A E wfS) z dst
            (Host.gather (RowGather.dims2 N A E wfG) (fun i => xw i * d (ix1 (i 0))) src) (ix2 n f)
          + xw (ix2 n f) * d (ix1 n)) + b := by
  rw [addf_apply, weightedSum_apply hN wfS wfG wfG1 hbE hbEA z d dst src xw n f dst, selfTerm_apply hbN hbNA d xw n f,
    neighbourSum_apply hN wfS wfG z dst src n f]
  exact (Algebra.layer_entry (d (ix1 n)) (z (ix2 n f)) (hd (ix1 n)).1 (hd (ix1 n)).2 hz
    (fun e : Fin E => (dst (ix2 e (0 : Fin 1))).toInt = (n.val : ℤ))
    (fun e => xw (ix2 (RowGather.rowOf N hN (src (ix2 e (0 : Fin 1)))) f))
    (fun e => d (ix1 (RowGather.rowOf N hN (src (ix2 e (0 : Fin 1))))))
    (fun e => d (ix1 (RowGather.rowOf N hN (dst (ix2 e (0 : Fin 1))))))
    (fun e he => by rw [rowOf_of_toInt hN _ n he]) (xw (ix2 n f)) b).symm

end

end Cert.Gcn.Arrange

end
-- ==== Proof.LibDense.lean ====
/-
  Dense layers read at an index, over the extended reals.

  A bias vector `b : [N]` enters a dense layer as a row broadcast over `M` rows: in a kernel as a shape cast to
  `[1, N]` followed by a vector broadcast to `[M, N]`, on the host as two `broadcast_in_dim`s.  Either way the entry
  at `(p, q)` is `b q`.  With the plain matrix product read at an index this gives the three layers below as plain
  formulas, whatever the tiling of the rows:

    * `linRelu x w b (p, q) = max (∑ k, x (p, k) * w (k, q) + b q) 0`
    * `sageRelu agg h wl bl wr (p, q) = max ((∑ k, agg (p, k) * wl (k, q) + bl q) + ∑ k, h (p, k) * wr (k, q)) 0`
    * `mlpPre cat w1 b1 w2 b2 (p, u) = ∑ j, max (∑ k, cat (p, k) * w1 (k, j) + b1 j) 0 * w2 (j, u) + b2 u`
    * `mlpScore … = tanh (mlpPre …)`, entry by entry

  (`0` is kept as the float word `0x00000000` read at the ideal instance; it is the same word on every side and is
  never evaluated.)
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.DenseLayer

open Idealize.ShloMosaic Idealize.ShloMosaic.ValueIdx

variable {α : Type}

/-- A kernel's bias row: `b : [N]` cast to `[1, N]` and broadcast to `[M, N]` reads `b q` at `(p, q)`. -/
theorem castRow_apply {M N : ℕ} (b : (⟨1, ![N]⟩ : Shape).Idx → α)
    (h1 : (⟨1, ![N]⟩ : Shape).ShapeCasts ⟨2, ![1, N]⟩) (h2 : (⟨2, ![1, N]⟩ : Shape).Broadcasts ⟨2, ![M, N]⟩)
    (p : Fin M) (q : Fin N) :
    broadcastTo ⟨2, ![M, N]⟩ (shapeCast ⟨2, ![1, N]⟩ b h1) h2 (ix2 p q) = b (ix1 q) := by
  rw [broadcastTo_1b_ab_apply, shapeCast_a_1a_apply]

/-- The host's bias row: `b : [N]` broadcast to `[1, N]` along axis 1, then to `[M, N]`, reads `b q` at `(p, q)`. -/
theorem inDimRow_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1])
    (p : Fin M) (q : Fin N) :
    broadcastInDim ⟨2, ![M, N]⟩ ![0, 1] h2 (broadcastInDim ⟨2, ![1, N]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if N = 1 then 0 else q.val
      split
      · have := q.isLt; omega
      · rfl)]
  exact broadcastInDim_apply ![1] h1 b (ix2 (0 : Fin 1) q) (ix1 q) (fun a => by
    match a with
    | ⟨0, _⟩ =>
      show q.val = if N = 1 then 0 else q.val
      split
      · have := q.isLt; omega
      · rfl)

/-- The float word zero, read at the ideal instance. -/
abbrev zeroWord : EReal := Ideal.ofBits .f32 0x00000000#32

/-- `relu (x · w + b)`, entry by entry. -/
def linRelu {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal := fun i =>
  max (∑ k : Fin K, x (ix2 (i 0) k) * w (ix2 k (i 1)) + b (ix1 (i 1))) zeroWord

/-- `relu ((agg · wl + bl) + h · wr)`, entry by entry. -/
def sageRelu {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) :
    (⟨2, ![M, N]⟩ : Shape).Idx → EReal := fun i =>
  max ((∑ k : Fin K, agg (ix2 (i 0) k) * wl (ix2 k (i 1)) + bl (ix1 (i 1)))
    + ∑ k : Fin K, h (ix2 (i 0) k) * wr (ix2 k (i 1))) zeroWord

/-- `relu (cat · w1 + b1) · w2 + b2`, entry by entry: the score before its `tanh`. -/
def mlpPre {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  ∑ j : Fin H, linRelu cat w1 b1 (ix2 (i 0) j) * w2 (ix2 j (i 1)) + b2 (ix1 (i 1))

/-- The score: `tanh` of `mlpPre`, entry by entry. -/
def mlpScore {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal := fun i =>
  Ideal.tanh (mlpPre cat w1 b1 w2 b2 i)

theorem linRelu_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    linRelu x w b (ix2 p q) = max (∑ k : Fin K, x (ix2 p k) * w (ix2 k q) + b (ix1 q)) zeroWord := rfl

theorem sageRelu_apply {M K N : ℕ} (agg h : (⟨2, ![M, K]⟩ : Shape).Idx → EReal) (wl : (⟨2, ![K, N]⟩ : Shape).Idx → EReal)
    (bl : (⟨1, ![N]⟩ : Shape).Idx → EReal) (wr : (⟨2, ![K, N]⟩ : Shape).Idx → EReal) (p : Fin M) (q : Fin N) :
    sageRelu agg h wl bl wr (ix2 p q)
      = max ((∑ k : Fin K, agg (ix2 p k) * wl (ix2 k q) + bl (ix1 q)) + ∑ k : Fin K, h (ix2 p k) * wr (ix2 k q)) zeroWord := rfl

theorem mlpPre_apply {M K H N : ℕ} (cat : (⟨2, ![M, K]⟩ : Shape).Idx → EReal) (w1 : (⟨2, ![K, H]⟩ : Shape).Idx → EReal)
    (b1 : (⟨1, ![H]⟩ : Shape).Idx → EReal) (w2 : (⟨2, ![H, N]⟩ : Shape).Idx → EReal)
    (b2 : (⟨1, ![N]⟩ : Shape).Idx → EReal) (p : Fin M) (u : Fin N) :
    mlpPre cat w1 b1 w2 b2 (ix2 p u)
      = ∑ j : Fin H, max (∑ k : Fin K, cat (ix2 p k) * w1 (ix2 k j) + b1 (ix1 j)) zeroWord * w2 (ix2 j u) + b2 (ix1 u) := rfl

end Idealize.ShloMosaic.DenseLayer

end
-- ==== Proof.LibColumnOfVector.lean ====
/-
  A vector laid out as one column.

  An array of shape `[a]` reshaped to `[a, 1]` keeps its entries in order: the entry at `(p, z)` (the unit coordinate
  `z` is `0`) is the vector's entry at `p`.
-/
import Idealize.ShloMosaic.Lib.Pipeline.Value
import Idealize.ShloMosaic.Lib.ValueIdx
import Idealize.ShloMosaic.Lib.ValueLayout

noncomputable section

namespace Idealize.ShloMosaic.ColumnOfVector

open Idealize.ShloMosaic Idealize.ShloMosaic.ValueIdx

/-- An `[a]` array cast to `[a, 1]` reads, at `(p, z)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

end Idealize.ShloMosaic.ColumnOfVector

end
-- ==== Proof.RefLayer1.lean ====
/-
  The first layer of the reference is the kernel's first layer, entry by entry.

  The reference's first layer at `(n, f)` is the clip at zero of: the weighted neighbour sum of the rows of `x · W1`
  (each edge weighted by the product of the degree factors of its two ends), plus `(d n · d n)` times the node's own
  row, plus the bias. The kernel's is the clip at zero of: `d n` times (the neighbour sum of the rows of `x · W1`
  already scaled by their nodes' factors, plus the node's own scaled row), plus the bias. Under non-negative targets
  both use the same index columns and the same degree factor, which is non-negative and not `+∞`, so the two
  arrangements agree.
-/
import proofs.«154383_j78194174591377_2_alg».proof.Proof.RefDegree
import proofs.«154383_j78194174591377_2_alg».proof.Proof.LibGcnArrange
import proofs.«154383_j78194174591377_2_alg».proof.Proof.LibPlainDot
import proofs.«154383_j78194174591377_2_alg».proof.Proof.LibDense
import proofs.«154383_j78194174591377_2_alg».proof.Proof.LibColumnOfVector
import Idealize.ShloMosaic.Lib.ValueLayout

noncomputable section

open scoped BigOperators

namespace Cert.Gcn.Ref

open Idealize.ShloMosaic Idealize.ShloMosaic.ValueIdx Cert.ReferenceIdeal Cert.ReferenceIdeal.Read

/-- The degree column at `(n, 0)` is the degree factor at `n`. -/
theorem degCol_apply (x1 : IVec S2x800000 32) (n : Fin 50000) :
    Cert.Gcn.degCol x1 (ix2 n (0 : Fin 1)) = Cert.Gcn.degFactor x1 (ix1 n) :=
  ColumnOfVector.shapeCast_a_a1_apply _ _ n 0

/-- The reference's first projection at `(n, f)` is the plain matrix product. -/
theorem v16_apply' (x0 : FVec Ideal S50000x768 .f32) (x2 : FVec Ideal S768x128 .f32) (n : Fin 50000) (f : Fin 128) :
    val_main_v16 (F := Ideal) x0 x2 (ix2 n f) = ∑ k : Fin 768, x0 (ix2 n k) * x2 (ix2 k f) :=
  PlainDot.dotGeneral_apply _ rfl none .single x0 x2 n f

/-- The kernel's scaled first projection is the reference's projection scaled row by row by the degree factor. -/
theorem stage1_eq (x0 : FVec Ideal S50000x768 .f32) (x1 : IVec S2x800000 32) (x2 : FVec Ideal S768x128 .f32) :
    Cert.Gcn.stage1 x0 x1 x2 = fun i => val_main_v16 (F := Ideal) x0 x2 i * Cert.Gcn.degFactor x1 (ix1 (i 0)) := by
  funext i
  obtain ⟨n, f, rfl⟩ : ∃ (n : Fin 50000) (f : Fin 128), i = ix2 n f := ⟨i 0, i 1, eq_ix2 i⟩
  show (∑ k : Fin 768, x0 (ix2 n k) * x2 (ix2 k f)) * Cert.Gcn.degCol x1 (ix2 n (0 : Fin 1))
    = val_main_v16 (F := Ideal) x0 x2 (ix2 n f) * Cert.Gcn.degFactor x1 (ix1 n)
  rw [v16_apply', degCol_apply]

/-- THE FIRST LAYER at `(n, f)`. -/
theorem layer1 (x0 : FVec Ideal S50000x768 .f32) (x1 : IVec S2x800000 32) (x2 : FVec Ideal S768x128 .f32)
    (x3 : FVec Ideal S128 .f32) (hdst : ∀ e : Fin 800000, 0 ≤ (x1 (ix2 (1 : Fin 2) e)).toInt)
    (n : Fin 50000) (f : Fin 128) :
    val_main_v53 (F := Ideal) x0 x1 x2 x3 (ix2 n f)
      = Cert.Gcn.hidden (Cert.Gcn.neighbourSum128 x1 (Cert.Gcn.stage1 x0 x1 x2)) (Cert.Gcn.stage1 x0 x1 x2)
          (Cert.Gcn.degCol x1) (shapeCast S1x128 x3 Cert.KernelIdeal.Facts₀.shapeCasts_S128_S1x128) n f := by
  rw [val_main_v53_apply, val_main_v52_apply, val_main_call0_v0_apply, val_main_call0_cst_apply, Ideal.maximumf_def,
    Ideal.addf_def, Ideal.ofBits_def]
  unfold Cert.Gcn.hidden
  refine congrArg (fun t => max t Cert.Gcn.zeroWord) ?_
  rw [show val_main_v51 (F := Ideal) x3 (ix2 n f) = x3 (ix1 f) from DenseLayer.inDimRow_apply x3 _ _ n f,
    shapeCast_a_1a_apply, degCol_apply, stage1_eq]
  unfold val_main_v49 val_main_v44 val_main_v48 val_main_v47 val_main_v46 val_main_v45 val_main_v41 val_main_v40
    val_main_v32 val_main_v31 val_main_v30 val_main_v23 val_main_v39
  rw [v15_eq x1 hdst, v22_eq, v29_eq x1 hdst, v38_eq, v43_eq]
  exact Arrange.arrange (N := 50000) (E := 800000) (A := 128) (by decide)
    Cert.ReferenceIdeal.Facts₀.scatter_S50000x128_S800000x1_S800000x128_1_0_0_1_wf
    Cert.ReferenceIdeal.Facts₀.gather_S50000x128_S800000x1_S800000x128_1_0_n_n_0_1_1128_wf
    Cert.ReferenceIdeal.Facts₀.gather_S50000_S800000x1_S800000_n_0_n_n_0_1_1_wf
    Cert.ReferenceIdeal.Facts₀.bcast_S800000_S800000x1_0 Cert.ReferenceIdeal.Facts₀.bcast_S800000x1_S800000x128_0_1
    Cert.ReferenceIdeal.Facts₀.bcast_S50000_S50000x1_0 Cert.ReferenceIdeal.Facts₀.bcast_S50000x1_S50000x128_0_1
    (val_main_v42 (F := Ideal)) (Cert.Gcn.degFactor x1) (Cert.Gcn.dstCol x1) (Cert.Gcn.srcCol x1)
    (val_main_v16 (F := Ideal) x0 x2) n f (degFactor_sign x1) Ideal.ofBits_zero_f32 (x3 (ix1 f))

end Cert.Gcn.Ref

end
-- ==== Proof.RefLayer2.lean ====
/-
  The second layer of the reference is the kernel's second layer, entry by entry.

  The second projection multiplies the first layer's activations by `W2`; since the two first layers agree entry by
  entry, so do the projections, and the kernel's is the reference's scaled row by row by the degree factor. The second
  layer then repeats the first layer's two arrangements at width 64, without the clip.
-/
import proofs.«154383_j78194174591377_2_alg».proof.Proof.RefLayer1

noncomputable section

open scoped BigOperators

namespace Cert.Gcn.Ref

open Idealize.ShloMosaic Idealize.ShloMosaic.ValueIdx Cert.ReferenceIdeal Cert.ReferenceIdeal.Read

/-- The reference's second projection at `(n, g)` is the plain matrix product of the first layer's activations. -/
theorem v54_apply' (x0 : FVec Ideal S50000x768 .f32) (x1 : IVec S2x800000 32) (x2 : FVec Ideal S768x128 .f32)
    (x3 : FVec Ideal S128 .f32) (x4 : FVec Ideal S128x64 .f32) (n : Fin 50000) (g : Fin 64) :
    val_main_v54 (F := Ideal) x0 x1 x2 x3 x4 (ix2 n g)
      = ∑ f : Fin 128, val_main_v53 (F := Ideal) x0 x1 x2 x3 (ix2 n f) * x4 (ix2 f g) :=
  PlainDot.dotGeneral_apply _ rfl none .single (val_main_v53 (F := Ideal) x0 x1 x2 x3) x4 n g

/-- The kernel's scaled second projection is the reference's projection scaled row by row by the degree factor. -/
theorem stage2_eq (x0 : FVec Ideal S50000x768 .f32) (x1 : IVec S2x800000 32) (x2 : FVec Ideal S768x128 .f32)
    (x3 : FVec Ideal S128 .f32) (x4 : FVec Ideal S128x64 .f32)
    (hdst : ∀ e : Fin 800000, 0 ≤ (x1 (ix2 (1 : Fin 2) e)).toInt) :
    Cert.Gcn.stage2 x0 x1 x2 x3 x4
      = fun i => val_main_v54 (F := Ideal) x0 x1 x2 x3 x4 i * Cert.Gcn.degFactor x1 (ix1 (i 0)) := by
  funext i
  obtain ⟨n, g, rfl⟩ : ∃ (n : Fin 50000) (g : Fin 64), i = ix2 n g := ⟨i 0, i 1, eq_ix2 i⟩
  show (∑ f : Fin 128, Cert.Gcn.hidden (Cert.Gcn.neighbourSum128 x1 (Cert.Gcn.stage1 x0 x1 x2)) (Cert.Gcn.stage1 x0 x1 x2)
        (Cert.Gcn.degCol x1) (shapeCast S1x128 x3 Cert.KernelIdeal.Facts₀.shapeCasts_S128_S1x128) n f * x4 (ix2 f g))
      * Cert.Gcn.degCol x1 (ix2 n (0 : Fin 1))
    = val_main_v54 (F := Ideal) x0 x1 x2 x3 x4 (ix2 n g) * Cert.Gcn.degFactor x1 (ix1 n)
  rw [v54_apply', degCol_apply]
  refine congrArg (fun t => t * Cert.Gcn.degFactor x1 (ix1 n)) (Finset.sum_congr rfl fun f _ => ?_)
  rw [layer1 x0 x1 x2 x3 hdst n f]

/-- THE SECOND LAYER at `(n, g)`. -/
theorem layer2 (x0 : FVec Ideal S50000x768 .f32) (x1 : IVec S2x800000 32) (x2 : FVec Ideal S768x128 .f32)
    (x3 : FVec Ideal S128 .f32) (x4 : FVec Ideal S128x64 .f32) (x5 : FVec Ideal S64 .f32)
    (hdst : ∀ e : Fin 800000, 0 ≤ (x1 (ix2 (1 : Fin 2) e)).toInt) (n : Fin 50000) (g : Fin 64) :
    val_main_v90 (F := Ideal) x0 x1 x2 x3 x4 x5 (ix2 n g)
      = Cert.Gcn.embed (Cert.Gcn.neighbourSum64 x1 (Cert.Gcn.stage2 x0 x1 x2 x3 x4)) (Cert.Gcn.stage2 x0 x1 x2 x3 x4)
          (Cert.Gcn.degCol x1) (shapeCast S1x64 x5 Cert.KernelIdeal.Facts₀.shapeCasts_S64_S1x64) n g := by
  rw [val_main_v90_apply, Ideal.addf_def]
  unfold Cert.Gcn.embed
  rw [show val_main_v89 (F := Ideal) x5 (ix2 n g) = x5 (ix1 g) from DenseLayer.inDimRow_apply x5 _ _ n g,
    shapeCast_a_1a_apply, degCol_apply, stage2_eq x0 x1 x2 x3 x4 hdst]
  unfold val_main_v87 val_main_v82 val_main_v86 val_main_v85 val_main_v84 val_main_v83 val_main_v79 val_main_v78
    val_main_v70 val_main_v69 val_main_v68 val_main_v61 val_main_v77
  rw [v15_eq x1 hdst, v60_eq, v67_eq x1 hdst, v76_eq, v81_eq]
  exact Arrange.arrange (N := 50000) (E := 800000) (A := 64) (by decide)
    Cert.ReferenceIdeal.Facts₀.scatter_S50000x64_S800000x1_S800000x64_1_0_0_1_wf
    Cert.ReferenceIdeal.Facts₀.gather_S50000x64_S800000x1_S800000x64_1_0_n_n_0_1_164_wf
    Cert.ReferenceIdeal.Facts₀.gather_S50000_S800000x1_S800000_n_0_n_n_0_1_1_wf
    Cert.ReferenceIdeal.Facts₀.bcast_S800000_S800000x1_0 Cert.ReferenceIdeal.Facts₀.bcast_S800000x1_S800000x64_0_1
    Cert.ReferenceIdeal.Facts₀.bcast_S50000_S50000x1_0 Cert.ReferenceIdeal.Facts₀.bcast_S50000x1_S50000x64_0_1
    (val_main_v80 (F := Ideal)) (Cert.Gcn.degFactor x1) (Cert.Gcn.dstCol x1) (Cert.Gcn.srcCol x1)
    (val_main_v54 (F := Ideal) x0 x1 x2 x3 x4) n g (degFactor_sign x1) Ideal.ofBits_zero_f32 (x5 (ix1 g))

end Cert.Gcn.Ref

end
-- ==== Proof.RefBridge.lean ====
/-
  The reference computes the network.

  The classifier multiplies the second layer's output by `Wc` and adds the bias row. The two second layers agree
  entry by entry under non-negative targets, so the reference's result is the kernel dataflow's `network` of the same
  argument arrays.
-/
import proofs.«154383_j78194174591377_2_alg».proof.Proof.RefLayer2

noncomputable section

open scoped BigOperators

namespace Cert.Gcn.Ref

open Idealize.ShloMosaic Idealize.ShloMosaic.ValueIdx Cert.ReferenceIdeal Cert.ReferenceIdeal.Read

/-- The reference's classifier product at `(n, j)` is the plain matrix product of the second layer's output. -/
theorem v91_apply' (x0 : FVec Ideal S50000x768 .f32) (x1 : IVec S2x800000 32) (x2 : FVec Ideal S768x128 .f32)
    (x3 : FVec Ideal S128 .f32) (x4 : FVec Ideal S128x64 .f32) (x5 : FVec Ideal S64 .f32) (x6 : FVec Ideal S64x2 .f32)
    (n : Fin 50000) (j : Fin 2) :
    val_main_v91 (F := Ideal) x0 x1 x2 x3 x4 x5 x6 (ix2 n j)
      = ∑ g : Fin 64, val_main_v90 (F := Ideal) x0 x1 x2 x3 x4 x5 (ix2 n g) * x6 (ix2 g j) :=
  PlainDot.dotGeneral_apply _ rfl none .single (val_main_v90 (F := Ideal) x0 x1 x2 x3 x4 x5) x6 n j

/-- THE REFERENCE IS THE NETWORK, for argument arrays whose target words are all non-negative. -/
theorem ref_eq_network (x0 : FVec Ideal S50000x768 .f32) (x1 : IVec S2x800000 32) (x2 : FVec Ideal S768x128 .f32)
    (x3 : FVec Ideal S128 .f32) (x4 : FVec Ideal S128x64 .f32) (x5 : FVec Ideal S64 .f32) (x6 : FVec Ideal S64x2 .f32)
    (x7 : FVec Ideal S2 .f32) (hdst : ∀ e : Fin 800000, 0 ≤ (x1 (ix2 (1 : Fin 2) e)).toInt) :
    val_main_v94 (F := Ideal) x0 x1 x2 x3 x4 x5 x6 x7 = Cert.Gcn.network x0 x1 x2 x3 x4 x5 x6 x7 := by
  funext i
  obtain ⟨n, j, rfl⟩ : ∃ (n : Fin 50000) (j : Fin 2), i = ix2 n j := ⟨i 0, i 1, eq_ix2 i⟩
  rw [val_main_v94_apply, Ideal.addf_def]
  show _ = (∑ g : Fin 64, Cert.Gcn.embed (Cert.Gcn.neighbourSum64 x1 (Cert.Gcn.stage2 x0 x1 x2 x3 x4))
          (Cert.Gcn.stage2 x0 x1 x2 x3 x4) (Cert.Gcn.degCol x1)
          (shapeCast S1x64 x5 Cert.KernelIdeal.Facts₀.shapeCasts_S64_S1x64) n g * x6 (ix2 g j))
      + shapeCast S1x2 x7 Cert.KernelIdeal.Facts₀.shapeCasts_S2_S1x2 (ix2 (0 : Fin 1) j)
  rw [show val_main_v93 (F := Ideal) x7 (ix2 n j) = x7 (ix1 j) from DenseLayer.inDimRow_apply x7 _ _ n j,
    shapeCast_a_1a_apply, v91_apply']
  refine congrArg (fun t => t + x7 (ix1 j)) (Finset.sum_congr rfl fun g _ => ?_)
  rw [layer2 x0 x1 x2 x3 x4 x5 hdst n g]

end Cert.Gcn.Ref

end
-- ==== Proof.PreDst.lean ====
/-
  What the precondition says of the target words.

  The precondition is a conjunction of `all`s, and its last conjunct is "every word of row 1 of the edge array is at
  least 0, read signed". A conjunction of bits that is 1 has every conjunct 1; an `all` that is 1 has every element 1;
  and a signed "greater or equal" bit that is 1 says the order of the two signed values. The row is read at an edge as
  the edge array at `(1, e)`, and the constant it is compared with is the zero word.
-/
import proofs.«154383_j78194174591377_2_alg».proof.Proof.Gen.Pre_finite_inputs
import proofs.«154383_j78194174591377_2_alg».proof.Proof.EdgeRows
import Idealize.ShloMosaic.Lib.ReduceAll
import Idealize.ShloMosaic.PureOps.Ideal

noncomputable section

namespace Cert.Gcn.Pre

open Idealize.ShloMosaic Idealize.ShloMosaic.ValueIdx Cert.Pre_finite_inputs Cert.Pre_finite_inputs.Facts

/-- A rank-0 array has one index. -/
instance : Subsingleton S_.Idx := ⟨fun a b => funext fun d => d.elim0⟩

/-- Under the precondition every target word is non-negative as a signed integer. -/
theorem dst_nonneg (a0 : FVec Ideal S50000x768 .f32) (a1 : IVec S2x800000 32) (a2 : FVec Ideal S768x128 .f32)
    (a3 : FVec Ideal S128 .f32) (a4 : FVec Ideal S128x64 .f32) (a5 : FVec Ideal S64 .f32) (a6 : FVec Ideal S64x2 .f32)
    (a7 : FVec Ideal S2 .f32)
    (h : Cert.Pre_finite_inputs.fn (F := Ideal) a0 a1 a2 a3 a4 a5 a6 a7 = fun _ => 1#1) :
    ∀ e : Fin 800000, 0 ≤ (a1 (ix2 (1 : Fin 2) e)).toInt := by
  intro e
  have h0 := congrFun h ValueIdx.ix0
  dsimp only [Cert.Pre_finite_inputs.fn, fn_part1, fn_part2] at h0
  have h1 := (IntOp.andi_eq_one.1 h0).2
  have h2 := Host.reduce_andi_all _ _ _ _ _ h1 (ix1 e)
  have h3 := IntOp.cmpi_sge.1 h2
  rw [EdgeRows.row1_apply a1 slices_S2x800000_S1x800000_1_0 shapeCasts_S1x800000_S800000 e] at h3
  exact h3

end Cert.Gcn.Pre

end
-- ==== Proof.lean ====
/-
  A two-layer graph convolution with a linear classifier, over 50000 nodes and 800000 edges: a tiled kernel against its
  plain array reference, equal over the extended reals.

  With `d n` the inverse square root of node `n`'s degree (the edges ending at it, plus one), a layer of the reference
  is `∑ over the edges e ending at n of (d (src e) · d n) · (x·W) (src e) + (d n · d n) · (x·W) n + b`. The kernel
  instead scales each projected row by its own factor once, `y = (x·W) · d`, sums the scaled rows of the neighbours and
  the node's own scaled row, and multiplies the total by `d n`: `d n · (∑ y (src e) + y n) + b`. The two agree because
  `d n` is a non-negative real number, and such a factor distributes over a sum of extended reals whatever the summands
  are; the rest is commutativity and associativity of the product (`Cert.Gcn.Algebra.layer_entry`). The dense parts — the
  projections, the clipping at zero of the first layer, the classifier — are the same sums on both sides.

  Both programs count a node's degree by an accumulating scatter of ones at the edges' target words. The reference's count
  first moves a negative target word up by the node count, the kernel's does not; the neighbour sums of both use the
  target words as they are. Under the stated domain — no target word is negative — the two counts are the same array,
  and that is the only place where the precondition is used: no entry of the float arguments needs to be finite.

  The kernel's side: its run is three pipelined regions among host operations. Each region's result array is one
  whole-array function of the arrays it finds (`Region0`, `Region1`, `Region2`: what a tile writes back is the tile's
  block of that function, and the 25 tiles cover the rows); the host stretches between them gather the source rows and
  scatter-add them at the target rows. Composed from the launch memory this is `Cert.Gcn.network` of the arguments
  (`KernelValue`). The reference's side: its run's term, read one operation at a time, is the same `network`
  (`RefBridge`). The word-level kernel is the idealized one read at another instance: nothing was rewritten.
-/
import proofs.«154383_j78194174591377_2_alg».proof.Defs
import proofs.«154383_j78194174591377_2_alg».proof.Proof.Gen.Kernel
import proofs.«154383_j78194174591377_2_alg».proof.Proof.Gen.Kernel.Skeleton
import proofs.«154383_j78194174591377_2_alg».proof.Proof.Gen.Kernel.Launch
import proofs.«154383_j78194174591377_2_alg».proof.Proof.Gen.Kernel.Points
import proofs.«154383_j78194174591377_2_alg».proof.Proof.Gen.Kernel.Frame
import proofs.«154383_j78194174591377_2_alg».proof.Proof.Gen.KernelIdeal
import proofs.«154383_j78194174591377_2_alg».proof.Proof.Gen.KernelIdeal.Skeleton
import proofs.«154383_j78194174591377_2_alg».proof.Proof.Gen.KernelIdeal.Launch
import proofs.«154383_j78194174591377_2_alg».proof.Proof.Gen.KernelIdeal.Points
import proofs.«154383_j78194174591377_2_alg».proof.Proof.Gen.KernelIdeal.Frame
import proofs.«154383_j78194174591377_2_alg».proof.Proof.Gen.ReferenceIdeal
import proofs.«154383_j78194174591377_2_alg».proof.Proof.Gen.ReferenceIdeal.Run
import proofs.«154383_j78194174591377_2_alg».proof.Proof.Gen.ReferenceIdeal.Read
import proofs.«154383_j78194174591377_2_alg».proof.Proof.Gen.Pre_finite_inputs
import proofs.«154383_j78194174591377_2_alg».proof.Proof.KernelValue
import proofs.«154383_j78194174591377_2_alg».proof.Proof.RefBridge
import proofs.«154383_j78194174591377_2_alg».proof.Proof.PreDst
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its idealization. -/
theorem preserves : Cert.preserves_Kernel_KernelIdeal := trivial

/-- From memories that agree on the arguments, the idealized kernel ends at `network` of its arguments and the idealized
    reference at its composed term of the same arguments; under the precondition no target word is negative, and then the
    reference's term is that `network`. -/
theorem algebraic : Cert.algebraic_KernelIdeal_ReferenceIdeal := by
  intro m ρ m' ρ' hpre hagree
  refine ⟨_, Cert.KernelIdeal.Named.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v94_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.Gcn.Ref.ref_eq_network _ _ _ _ _ _ _ _ (Cert.Gcn.Pre.dst_nonneg _ _ _ _ _ _ _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
